-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S2x1600000 : Shape := ⟨2, ![2, 1600000]⟩
abbrev S1600000x32 : Shape := ⟨2, ![1600000, 32]⟩
abbrev S32x32 : Shape := ⟨2, ![32, 32]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_arg5 : FVec F S32x32 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32x32 .f32 := Host.absf main_arg5
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  main_v23

def fn {F : FTy → Type} [FloatOps F] (main_arg0 : FVec F S50000x32 .f32) (main_arg1 : IVec S2x1600000 32) (main_arg2 : FVec F S1600000x32 .f32) (main_arg3 : FVec F S32x32 .f32) (main_arg4 : FVec F S32x32 .f32) (main_arg5 : FVec F S32x32 .f32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S32x32 .f32 := Host.absf main_arg3
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_v13 main_v16
-- ==== Kernel.lean ====
abbrev S50000x32 : Shape := ⟨2, ![50000, 32]⟩
abbrev S2x1600000 : Shape := ⟨2, ![2, 1600000]⟩
abbrev S1600000x32 : Shape := ⟨2, ![1600000, 32]⟩
abbrev S32x32 : Shape := ⟨2, ![32, 32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S400000x128 : Shape := ⟨2, ![400000, 128]⟩
abbrev S4x4 : Shape := ⟨2, ![4, 4]⟩
abbrev S4x1x4x1 : Shape := ⟨4, ![4, 1, 4, 1]⟩
abbrev S1x32x1x32 : Shape := ⟨4, ![1, 32, 1, 32]⟩
abbrev S4x32x4x32 : Shape := ⟨4, ![4, 32, 4, 32]⟩
abbrev S128x128 : Shape := ⟨2, ![128, 128]⟩
abbrev S4000x128 : Shape := ⟨2, ![4000, 128]⟩

abbrev nBuf : Space → Nat
  | .hbm => 53
  | .vmem => 7
  | .smem => 0
  | _ => 0

abbrev bufTy : (tb : Table) → Fin (tcTables nBuf tb) → BufTy
  | .hbm, ⟨0, _⟩ => ⟨S50000x32, .f32⟩
  | .hbm, ⟨1, _⟩ => ⟨S2x1600000, .i32⟩
  | .hbm, ⟨2, _⟩ => ⟨S1600000x32, .f32⟩
  | .hbm, ⟨3, _⟩ => ⟨S32x32, .f32⟩
  | .hbm, ⟨4, _⟩ => ⟨S32x32, .f32⟩
  | .hbm, ⟨5, _⟩ => ⟨S32x32, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S50000x32, .f32⟩
  | .hbm, ⟨12, _⟩ => ⟨S1600000x1, .i32⟩
  | .hbm, ⟨13, _⟩ => ⟨S50000x32, .f32⟩
  | .hbm, ⟨14, _⟩ => ⟨S50000x32, .f32⟩
  | .hbm, ⟨15, _⟩ => ⟨S50000x32, .f32⟩
  | .hbm, ⟨16, _⟩ => ⟨S50000x32, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x32, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x32, .f32⟩
  | .hbm, ⟨35, _⟩ => ⟨S1600000x32, .f32⟩
  | .hbm, ⟨36, _⟩ => ⟨S400000x128, .f32⟩
  | .hbm, ⟨37, _⟩ => ⟨S400000x128, .f32⟩
  | .hbm, ⟨38, _⟩ => ⟨S4x4, .i32⟩
  | .hbm, ⟨39, _⟩ => ⟨S4x4, .i32⟩
  | .hbm, ⟨40, _⟩ => ⟨S_, .i32⟩
  | .hbm, ⟨41, _⟩ => ⟨S4x4, .i32⟩
  | .hbm, ⟨42, _⟩ => ⟨S4x4, .i32⟩
  | .hbm, ⟨43, _⟩ => ⟨S4x4, .i1⟩
  | .hbm, ⟨44, _⟩ => ⟨S4x4, .f32⟩
  | .hbm, ⟨45, _⟩ => ⟨S4x1x4x1, .f32⟩
  | .hbm, ⟨46, _⟩ => ⟨S1x32x1x32, .f32⟩
  | .hbm, ⟨47, _⟩ => ⟨S4x32x4x32, .f32⟩
  | .hbm, ⟨48, _⟩ => ⟨S4x32x4x32, .f32⟩
  | .hbm, ⟨49, _⟩ => ⟨S4x32x4x32, .f32⟩
  | .hbm, ⟨50, _⟩ => ⟨S128x128, .f32⟩
  | .hbm, ⟨51, _⟩ => ⟨S400000x128, .f32⟩
  | .hbm, ⟨52, _⟩ => ⟨S1600000x32, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S4000x128, .f32⟩
  | .local _ .vmem, ⟨6, _⟩ => ⟨S4000x128, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000x32 : S_.BroadcastsInDim S50000x32 (![] : Fin 0 → Fin S50000x32.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  shapeCasts_S1600000x32_S400000x128 : S1600000x32.ShapeCasts S400000x128
  bcast_S_S4x4 : S_.BroadcastsInDim S4x4 (![] : Fin 0 → Fin S4x4.rank)
  bcast_S4x4_S4x1x4x1_0_2 : S4x4.BroadcastsInDim S4x1x4x1 (![0, 2] : Fin 2 → Fin S4x1x4x1.rank)
  bcast_S32x32_S1x32x1x32_1_3 : S32x32.BroadcastsInDim S1x32x1x32 (![1, 3] : Fin 2 → Fin S1x32x1x32.rank)
  bcast_S4x1x4x1_S4x32x4x32_0_1_2_3 : S4x1x4x1.BroadcastsInDim S4x32x4x32 (![0, 1, 2, 3] : Fin 4 → Fin S4x32x4x32.rank)
  bcast_S1x32x1x32_S4x32x4x32_0_1_2_3 : S1x32x1x32.BroadcastsInDim S4x32x4x32 (![0, 1, 2, 3] : Fin 4 → Fin S4x32x4x32.rank)
  shapeCasts_S4x32x4x32_S128x128 : S4x32x4x32.ShapeCasts S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  shapeCasts_S400000x128_S1600000x32 : S400000x128.ShapeCasts S1600000x32
  scatter_S50000x32_S1600000x1_S1600000x32_1_0_0_1_wf : ScatterDims.WF S50000x32 S1600000x1 S1600000x32 [1] [0] [0] 1
  dot_S50000x32_S32x32_S50000x32_1_0_0_1_n_n_wf : DotDims.WF S50000x32 S32x32 S50000x32 [1] [0] [0] [1] [] []
  gather_S50000x32_S1600000x1_S1600000x32_1_0_n_n_0_1_132_wf : GatherDims.WF S50000x32 S1600000x1 S1600000x32 [1] [0] [] [0] [] 1 ![1, 32]
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S400000x128.size a
  hwx0_0 : ∀ i : grid0.Coords, EltTy.bits .f32 = 32 ∨ (Rect.block (s := S400000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S400000x128.size a
  hwx0_1 : ∀ i : grid0.Coords, EltTy.bits .f32 = 32 ∨ (Rect.block (s := S400000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S400000x128.size a
  hwx0_3 : ∀ i : grid0.Coords, EltTy.bits .f32 = 32 ∨ (Rect.block (s := S400000x128) S4000x128.size (cc0_transform_3 i) (hinb0_3 i)).WholeWords (EltTy.packing .f32)

variable [Facts₀]

def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def dot_S50000x32_S32x32_S50000x32_1_0_0_1_n_n : DotDims S50000x32 S32x32 S50000x32 where
  lhsContracting := [1]
  rhsContracting := [0]
  lhsNonContracting := [0]
  rhsNonContracting := [1]
  lhsBatch := []
  rhsBatch := []
  wf := dot_S50000x32_S32x32_S50000x32_1_0_0_1_n_n_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v25) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x32 : Shape := ⟨2, ![50000, 32]⟩
abbrev S2x1600000 : Shape := ⟨2, ![2, 1600000]⟩
abbrev S1600000x32 : Shape := ⟨2, ![1600000, 32]⟩
abbrev S32x32 : Shape := ⟨2, ![32, 32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩

abbrev nBuf : Space → Nat
  | .hbm => 57
  | .vmem => 0
  | .smem => 0
  | _ => 0

abbrev bufTy : (tb : Table) → Fin (tcTables nBuf tb) → BufTy
  | .hbm, ⟨0, _⟩ => ⟨S50000x32, .f32⟩
  | .hbm, ⟨1, _⟩ => ⟨S2x1600000, .i32⟩
  | .hbm, ⟨2, _⟩ => ⟨S1600000x32, .f32⟩
  | .hbm, ⟨3, _⟩ => ⟨S32x32, .f32⟩
  | .hbm, ⟨4, _⟩ => ⟨S32x32, .f32⟩
  | .hbm, ⟨5, _⟩ => ⟨S32x32, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x32, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x32, .f32⟩
  | .hbm, ⟨28, _⟩ => ⟨S1600000x32, .f32⟩
  | .hbm, ⟨29, _⟩ => ⟨S1600000x32, .f32⟩
  | .hbm, ⟨30, _⟩ => ⟨S1600000x32, .f32⟩
  | .hbm, ⟨31, _⟩ => ⟨S_, .f32⟩
  | .hbm, ⟨32, _⟩ => ⟨S50000x32, .f32⟩
  | .hbm, ⟨33, _⟩ => ⟨S1600000x1, .i32⟩
  | .hbm, ⟨34, _⟩ => ⟨S50000x32, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x32, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x32, .f32⟩
  | .hbm, ⟨53, _⟩ => ⟨S1600000x32, .f32⟩
  | .hbm, ⟨54, _⟩ => ⟨S1600000x32, .f32⟩
  | .hbm, ⟨55, _⟩ => ⟨S1600000x32, .f32⟩
  | .hbm, ⟨56, _⟩ => ⟨S1600000x32, .f32⟩
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_3 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x32 : S_.BroadcastsInDim S50000x32 (![] : Fin 0 → Fin S50000x32.rank)
  gather_S50000x32_S1600000x1_S1600000x32_1_0_n_n_0_1_132_wf : GatherDims.WF S50000x32 S1600000x1 S1600000x32 [1] [0] [] [0] [] 1 ![1, 32]
  dot_S1600000x32_S32x32_S1600000x32_1_0_0_1_n_n_wf : DotDims.WF S1600000x32 S32x32 S1600000x32 [1] [0] [0] [1] [] []
  scatter_S50000x32_S1600000x1_S1600000x32_1_0_0_1_wf : ScatterDims.WF S50000x32 S1600000x1 S1600000x32 [1] [0] [0] 1

variable [Facts₀]

def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def dot_S1600000x32_S32x32_S1600000x32_1_0_0_1_n_n : DotDims S1600000x32 S32x32 S1600000x32 where
  lhsContracting := [1]
  rhsContracting := [0]
  lhsNonContracting := [0]
  rhsNonContracting := [1]
  lhsBatch := []
  rhsBatch := []
  wf := dot_S1600000x32_S32x32_S1600000x32_1_0_0_1_n_n_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf

class Facts : Prop extends Facts₀ where

variable [Facts]
-- ==== Proof.KernelTerms.lean ====
/-
  The terms the host computes before the kernel region, and the region's whole-array function.

  From the node features `x`, the edge list `x1` (two rows of 1600000 node numbers), the edge weights `ew` and the
  matrices `wx`, `wi`, `wj` the host computes:
  * the per-source-node sums `S` of the edge weights (an accumulating scatter into zeros at the first row of `x1`);
  * the projected node table `T = x · wx + S · wj`;
  * for every edge the sum of the two rows of `T` its endpoints name (each endpoint number wrapped by +50000 when
    negative, then used as a clamped row index);
  * the 128×128 matrix with four copies of `wi` on its diagonal blocks: the 4×4 identity and `wi`, each spread to
    [4, 32, 4, 32], multiplied entry by entry and re-laid to [128, 128].
  The region then computes, on arrays re-laid from [1600000, 32] to [400000, 128] (four consecutive edges per row),
  `packed g e w`: entry (r, q) is `g (r, q) + Σ_k e (r, k) · w (k, q)` over the 128 contraction positions.
-/
import proofs.«172145_j1520418423078_2_alg».proof.Proof.Gen.KernelIdeal
import Idealize.ShloMosaic.Lib.ValueIdx

noncomputable section

open scoped BigOperators

namespace Cert.KernelIdeal.EdgeHost

open Idealize.ShloMosaic Idealize.ShloMosaic.ValueIdx Cert.KernelIdeal Cert.KernelIdeal.Gen

/-- The source node numbers: row 0 of the edge list, as a vector. -/
def srcVec (x1 : IVec S2x1600000 32) : IVec S1600000 32 :=
  shapeCast S1600000 (extractStridedSlice S1x1600000 ![0, 0] x1 slices_S2x1600000_S1x1600000_0_0) shapeCasts_S1x1600000_S1600000

/-- The destination node numbers: row 1 of the edge list, as a vector. -/
def dstVec (x1 : IVec S2x1600000 32) : IVec S1600000 32 :=
  shapeCast S1600000 (extractStridedSlice S1x1600000 ![1, 0] x1 slices_S2x1600000_S1x1600000_1_0) shapeCasts_S1x1600000_S1600000

/-- Node numbers as a column of row indices, a negative one first wrapped by +50000. -/
def wrapCol (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 50000#32))) v)

/-- Node numbers as a column of row indices, as they are. -/
def plainCol (v : IVec S1600000 32) : IVec S1600000x1 32 :=
  broadcastInDim S1600000x1 ![0] bcast_S1600000_S1600000x1_0 v

/-- The edge weights summed per source node, into zeros. -/
def segSum (x1 : IVec S2x1600000 32) (ew : FVec Ideal S1600000x32 .f32) : FVec Ideal S50000x32 .f32 :=
  Host.scatterAdd scatter_S50000x32_S1600000x1_S1600000x32_1_0_0_1
    (broadcastInDim S50000x32 ![] bcast_S_S50000x32 (constant S_ .f32 0x00000000#32)) (plainCol (srcVec x1)) ew

/-- Every node projected: `x · wx + S · wj`. -/
def nodeProj (x S : FVec Ideal S50000x32 .f32) (wx wj : FVec Ideal S32x32 .f32) : FVec Ideal S50000x32 .f32 :=
  addf (Host.dotGeneral dot_S50000x32_S32x32_S50000x32_1_0_0_1_n_n none x wx)
    (Host.dotGeneral dot_S50000x32_S32x32_S50000x32_1_0_0_1_n_n none S wj)

/-- Per edge, the sum of the two rows of a node table its endpoints name. -/
def endpointSum (T : FVec Ideal S50000x32 .f32) (x1 : IVec S2x1600000 32) : FVec Ideal S1600000x32 .f32 :=
  addf (Host.gather gather_S50000x32_S1600000x1_S1600000x32_1_0_n_n_0_1_132 T (wrapCol (srcVec x1)))
    (Host.gather gather_S50000x32_S1600000x1_S1600000x32_1_0_n_n_0_1_132 T (wrapCol (dstVec x1)))

/-- The 4×4 identity as floats: row number compared with column number. -/
def eye4 : FVec Ideal S4x4 .f32 :=
  uitofp .f32 (cmpi .eq (addi (iotaInDim S4x4 32 0) (broadcastInDim S4x4 ![] bcast_S_S4x4 (constantI S_ 32 0#32))) (iotaInDim S4x4 32 1))

/-- Four copies of a 32×32 matrix on the diagonal blocks of a 128×128 matrix. -/
def blockDiag (wi : FVec Ideal S32x32 .f32) : FVec Ideal S128x128 .f32 :=
  shapeCast S128x128
    (mulf (broadcastInDim S4x32x4x32 ![0, 1, 2, 3] bcast_S4x1x4x1_S4x32x4x32_0_1_2_3 (broadcastInDim S4x1x4x1 ![0, 2] bcast_S4x4_S4x1x4x1_0_2 eye4))
      (broadcastInDim S4x32x4x32 ![0, 1, 2, 3] bcast_S1x32x1x32_S4x32x4x32_0_1_2_3 (broadcastInDim S1x32x1x32 ![1, 3] bcast_S32x32_S1x32x1x32_1_3 wi)))
    shapeCasts_S4x32x4x32_S128x128

/-- The packed product: row by row, the first array plus the second times the matrix. -/
def packed (g e : S400000x128.Idx → EReal) (w : S128x128.Idx → EReal) : S400000x128.Idx → EReal := fun i =>
  g i + ∑ k : Fin 128, e (ix2 (i 0) k) * w (ix2 k (i 1))

end Cert.KernelIdeal.EdgeHost

end
-- ==== Proof.KernelHost.lean ====
/-
  What the kernel region finds in its three input arrays: the endpoint sums of the projected node table and the edge
  weights, both re-laid four edges per row, and the block-diagonal matrix of `wi` (the terms of KernelTerms). The three
  theorems read those terms off the host operations before the region; nothing is computed here.
-/
import proofs.«172145_j1520418423078_2_alg».proof.Proof.Gen.KernelIdeal.Frame
import proofs.«172145_j1520418423078_2_alg».proof.Proof.KernelTerms
import Idealize.ShloMosaic.Lib.Pipeline.Value
import Idealize.ShloMosaic.Lib.ValueIdx
import Idealize.ShloMosaic.Lib.StableHlo.Run

set_option maxRecDepth 16384

noncomputable section

namespace Cert.KernelIdeal.EdgeHost

open Idealize.ShloMosaic Idealize.ShloMosaic.TcCoe Idealize.ShloMosaic.ValueIdx Idealize.SL.Sem Cert.KernelIdeal Cert.KernelIdeal.Gen
open Idealize.ShloMosaic.StableHlo

variable (m : (ℓ : Loc nD τ sig) → Buf (Elt Ideal) ℓ)

set_option maxHeartbeats 4000000 in
/-- Window 0's array: the endpoint sums of the projected node table, four edges per row. -/
theorem V_nodeSums (c : Dev nD) :
    (V m c main_v25 : S400000x128.Idx → EReal)
      = shapeCast S400000x128
          (endpointSum (nodeProj (m ((c : Thread nD τ).loc main_arg0))
              (segSum (m ((c : Thread nD τ).loc main_arg1)) (m ((c : Thread nD τ).loc main_arg2)))
              (m ((c : Thread nD τ).loc main_arg3)) (m ((c : Thread nD τ).loc main_arg5)))
            (m ((c : Thread nD τ).loc main_arg1)))
          shapeCasts_S1600000x32_S400000x128 := by
  dsimp only [Gen.V, Gen.V0]
  simp only [Gen.hostOps0, Gen.hostOps0_1, List.flatten_cons, List.flatten_nil, List.append_nil, List.cons_append, List.nil_append]
  after_results
  rfl

/-- Window 1's array: the edge weights, four edges per row. -/
theorem V_edges (c : Dev nD) :
    (V m c main_v26 : S400000x128.Idx → EReal)
      = shapeCast S400000x128 (m ((c : Thread nD τ).loc main_arg2)) shapeCasts_S1600000x32_S400000x128 := by
  dsimp only [Gen.V, Gen.V0]
  simp only [Gen.hostOps0, Gen.hostOps0_1, List.flatten_cons, List.flatten_nil, List.append_nil, List.cons_append, List.nil_append]
  after_results
  rfl

set_option maxHeartbeats 4000000 in
/-- Window 2's array: the block-diagonal matrix of `wi`. -/
theorem V_blockDiag (c : Dev nD) :
    (V m c main_v33 : S128x128.Idx → EReal) = blockDiag (m ((c : Thread nD τ).loc main_arg4)) := by
  dsimp only [Gen.V, Gen.V0]
  simp only [Gen.hostOps0, Gen.hostOps0_1, List.flatten_cons, List.flatten_nil, List.append_nil, List.cons_append, List.nil_append]
  after_results
  rfl

end Cert.KernelIdeal.EdgeHost

end
-- ==== Proof.LibPlainDot.lean ====
/-
  A plain matrix product read at an index, on the extended reals.

  For the dimension numbers of an M×K by K×N product (contract the left operand's axis 1 with the right operand's
  axis 0, no batch axis), the product at row `r`, column `n` is the sum over the K contraction positions of
  `l (r, k) · r' (k, n)`. The contraction index of the dimension record is a one-coordinate index; it is re-indexed by
  that coordinate, and the operand indices at an output index and a contraction position are read off coordinate by
  coordinate. Stated for a kernel's matrix unit accumulating into the zero splat and for a host `dot_general`.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The contraction shape of a plain product has one axis, -/
theorem contr_rank : (DotDims.plain M K N).contr.rank = 1 := rfl

/-- of extent K. -/
theorem contr_size : (DotDims.plain M K N).contr.size ⟨0, by rw [contr_rank]; exact Nat.one_pos⟩ = K := rfl

/-- The left operand's index at output index `j` and contraction position `k` is (row of `j`, `k`). -/
theorem lhsIdx_eq (j : (⟨2, ![M, N]⟩ : Shape).Idx) (k : Fin K) :
    (DotDims.plain M K N).lhsIdx j ((contrEquiv1 (DotDims.plain M K N) K (contr_rank M K N) (contr_size M K N)).symm k)
      = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand's index at output index `j` and contraction position `k` is (`k`, column of `j`). -/
theorem rhsIdx_eq (j : (⟨2, ![M, N]⟩ : Shape).Idx) (k : Fin K) :
    (DotDims.plain M K N).rhsIdx j ((contrEquiv1 (DotDims.plain M K N) K (contr_rank M K N) (contr_size M K N)).symm k)
      = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The sum over the record's contraction index is the sum over the K positions. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K (contr_rank M K N) (contr_size M K N)).symm]
  exact Finset.sum_congr rfl fun k _ =>
    congrArg₂ (fun a b => l a * r b) (lhsIdx_eq M K N j k) (rhsIdx_eq M K N j k)

/-- A kernel's matrix unit accumulating into the zero splat, at an index: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr M K N l r j)

/-- A host `dot_general` at an index: the same sum, whatever the precision and schedule keys. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr M K N l r j)

end Cert.LibPlainDot

end
-- ==== Proof.KernelBody.lean ====
/-
  The kernel body's arithmetic, read at one entry.

  At one grid point the body holds a 4000×128 block `g` of the packed node sums, a 4000×128 block `e` of the packed edge
  weights and the whole 128×128 matrix `w`. It narrows `e` and `w` to 16-bit floats (the identity on extended reals),
  multiplies them on the matrix unit into a zero accumulator and adds `g`. Entry (p, q) of what it stores is therefore
  `g (p, q) + Σ_k e (p, k) · w (k, q)`, the sum over the 128 contraction positions.
-/
import proofs.«172145_j1520418423078_2_alg».proof.Proof.Gen.KernelIdeal.Skeleton
import proofs.«172145_j1520418423078_2_alg».proof.Proof.LibPlainDot
import Idealize.ShloMosaic.Lib.Pipeline.Value
import Idealize.ShloMosaic.Lib.ValueIdx

noncomputable section

open scoped BigOperators

namespace Cert.KernelIdeal.EdgeBody

open Idealize.ShloMosaic Idealize.ShloMosaic.ValueIdx Cert.KernelIdeal Cert.KernelIdeal.Gen

/-- The body's matrix product has the dimension numbers of a plain 4000×128 by 128×128 product. -/
theorem dot_eq_plain : dot_S4000x128_S128x128_S4000x128_1_0_0_1_n_n = DotDims.plain 4000 128 128 := rfl

/-- The stored value at entry (p, q): the node-sum block's entry plus the 128-term product row by column. -/
theorem pay_apply (w : Vec Ideal S128x128 .f32) (e g : Vec Ideal S4000x128 .f32) (p : Fin 4000) (q : Fin 128) :
    k0_pay1 (F := Ideal) w e g (ix2 p q) = g (ix2 p q) + ∑ k : Fin 128, e (ix2 p k) * w (ix2 k q) := by
  unfold k0_pay1
  rw [addf_apply, shapeCast_self, shapeCast_self, shapeCast_self, dot_eq_plain]
  refine congrArg (fun z => g (ix2 p q) + z) ?_
  exact (Cert.LibPlainDot.matmul_zero_apply 4000 128 128 none _ _ (ix2 p q)).trans rfl

end Cert.KernelIdeal.EdgeBody

end
-- ==== Proof.KernelValue.lean ====
/-
  From blocks to the whole output array of the kernel region.

  The region's grid has 100 points. At point `t` the output window and the first two input windows hold rows
  4000·t … 4000·t + 3999 (all 128 columns) of their [400000, 128] arrays, and the third input window holds the whole
  128×128 matrix. The body stores `g + e · w` (KernelBody), so what point `t` writes back is block `t` of the one
  whole-array function `packed g e w`: entry (r, q) is `g (r, q) + Σ_k e (r, k) · w (k, q)`. Row `r` lies in the block
  of point `r / 4000`, so the blocks cover the array and the array ends holding `packed` of the three input arrays.
-/
import proofs.«172145_j1520418423078_2_alg».proof.Proof.Gen.KernelIdeal.Frame
import proofs.«172145_j1520418423078_2_alg».proof.Proof.KernelBody
import proofs.«172145_j1520418423078_2_alg».proof.Proof.KernelTerms
import Idealize.ShloMosaic.Lib.Pipeline.Value
import Idealize.ShloMosaic.Lib.ValueIdx

set_option maxRecDepth 16384

noncomputable section

open scoped BigOperators

namespace Cert.KernelIdeal.EdgeValue

open Idealize.ShloMosaic Idealize.ShloMosaic.TcCoe Idealize.ShloMosaic.ValueIdx Idealize.SL.Sem Cert.KernelIdeal Cert.KernelIdeal.Gen
open Idealize.ShloMosaic.Pipeline (Dat)
open Cert.KernelIdeal.EdgeHost (packed)

variable (m : (ℓ : Loc nD τ sig) → Buf (Elt Ideal) ℓ) (ρ : Dev nD → PrngReg)

/-- The three input arrays as the region finds them, typed as arrays of extended reals. -/
abbrev nodeArr (c : Dev nD) : S400000x128.Idx → EReal := V m c main_v25
abbrev edgeArr (c : Dev nD) : S400000x128.Idx → EReal := V m c main_v26
abbrev matArr (c : Dev nD) : S128x128.Idx → EReal := V m c main_v33

theorem zero_offsets : (![0, 0] : Fin 2 → Nat) = fun _ => 0 := funext fun a => by fin_cases a <;> rfl

/-- The block index maps over the grid: the row-blocked windows are at block (t, 0), the matrix at block (0, 0). -/
theorem block_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

set_option maxHeartbeats 1600000 in
/-- What point `t` writes back is block `t` of `packed` of the three input arrays as the region finds them. -/
theorem flushed_eq (c : Dev nD) (t : Fin cfg0.N) :
    (dats m 0 c).flushed 3 t
      = ((cfg0.win 3).blk t).view.read (Elt Ideal) (packed (nodeArr m c) (edgeArr m c) (matArr m c)) := by
  show (cfg0.win 3).cut (grid0.coords t) ((dats m 0 c).after 3 t) = _
  rw [after0_3]
  unfold out0_3
  rw [View.canon_unit_zero zero_offsets]
  simp only [View.ld_unit_zero (S := S4000x128) zero_offsets, View.ld_unit_zero (S := S128x128) zero_offsets]
  obtain ⟨e00, e01, e10, e11, e20, e21, e30, e31⟩ := block_index t
  funext y
  obtain ⟨p, q, rfl⟩ : ∃ (p : Fin 4000) (q : Fin 128), y = ix2 p q := ⟨y 0, y 1, eq_ix2 y⟩
  refine (Cert.KernelIdeal.EdgeBody.pay_apply (iblk m c 2 t) (iblk m c 1 t) (iblk m c 0 t) p q).trans ?_
  show nodeArr m c (((cfg0.win 0).blk t).view.emb (ix2 p q))
      + ∑ k : Fin 128, edgeArr m c (((cfg0.win 1).blk t).view.emb (ix2 p k))
          * matArr m c (((cfg0.win 2).blk t).view.emb (ix2 k q))
    = nodeArr m c (((cfg0.win 3).blk t).view.emb (ix2 p q))
      + ∑ k : Fin 128, edgeArr m c (ix2 ((((cfg0.win 3).blk t).view.emb (ix2 p q)) 0) k)
          * matArr m c (ix2 k ((((cfg0.win 3).blk t).view.emb (ix2 p q)) 1))
  have hp : p.val < 4000 := p.isLt
  have hq : q.val < 128 := q.isLt
  have h0 : ((cfg0.win 0).blk t).view.emb (ix2 p q) = ((cfg0.win 3).blk t).view.emb (ix2 p q) := by
    funext a; apply Fin.ext
    match a with
    | ⟨0, _⟩ => show win0_0.index t (0 : Fin 2) * 4000 + 1 * p.val = win0_3.index t (0 : Fin 2) * 4000 + 1 * p.val; omega
    | ⟨1, _⟩ => show win0_0.index t (1 : Fin 2) * 128 + 1 * q.val = win0_3.index t (1 : Fin 2) * 128 + 1 * q.val; omega
  have h1 : ∀ k : Fin 128, ((cfg0.win 1).blk t).view.emb (ix2 p k) = ix2 ((((cfg0.win 3).blk t).view.emb (ix2 p q)) 0) k := by
    intro k
    funext a; apply Fin.ext
    match a with
    | ⟨0, _⟩ => show win0_1.index t (0 : Fin 2) * 4000 + 1 * p.val = win0_3.index t (0 : Fin 2) * 4000 + 1 * p.val; omega
    | ⟨1, _⟩ => show win0_1.index t (1 : Fin 2) * 128 + 1 * k.val = k.val; omega
  have h2 : ∀ k : Fin 128, ((cfg0.win 2).blk t).view.emb (ix2 k q) = ix2 k ((((cfg0.win 3).blk t).view.emb (ix2 p q)) 1) := by
    intro k
    funext a; apply Fin.ext
    match a with
    | ⟨0, _⟩ => show win0_2.index t (0 : Fin 2) * 128 + 1 * k.val = k.val; omega
    | ⟨1, _⟩ => show win0_2.index t (1 : Fin 2) * 128 + 1 * q.val = win0_3.index t (1 : Fin 2) * 128 + 1 * q.val; omega
  rw [h0]
  refine congrArg (fun z => nodeArr m c (((cfg0.win 3).blk t).view.emb (ix2 p q)) + z) ?_
  exact Finset.sum_congr rfl fun k _ => congrArg₂ (fun a b => edgeArr m c a * matArr m c b) (h1 k) (h2 k)

/-- An index of the array is in point `t`'s block iff each coordinate is in the block's range on its axis. -/
theorem mem_blk (t : Fin cfg0.N) (i : S400000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v34).slice (win0_3.rect t)).set ↔ _
  rw [View.set_slice_whole, Rect.mem_set_unit]
  exact Iff.rfl

/-- Every index is in the block of the point its row falls to. -/
theorem cover (i : S400000x128.Idx) : ∃ t : Fin cfg0.N, (cfg0.win 3).flush t = true ∧ i ∈ ((cfg0.win 3).blk t).view.set := by
  have hi0 : (i 0).val < 400000 := (i 0).isLt
  have hi1 : (i 1).val < 128 := (i 1).isLt
  have hN : cfg0.N = 100 := N_0
  refine ⟨⟨(i 0).val / 4000, by rw [hN]; omega⟩, flush0_3 _, ?_⟩
  rw [mem_blk]
  obtain ⟨-, -, -, -, -, -, e30, e31⟩ := block_index ⟨(i 0).val / 4000, by rw [hN]; omega⟩
  intro a
  match a with
  | ⟨0, _⟩ =>
    show win0_3.index _ (0 : Fin 2) * 4000 ≤ (i 0).val ∧ (i 0).val < win0_3.index _ (0 : Fin 2) * 4000 + 4000
    rw [e30]; show (i 0).val / 4000 * 4000 ≤ (i 0).val ∧ (i 0).val < (i 0).val / 4000 * 4000 + 4000; omega
  | ⟨1, _⟩ =>
    show win0_3.index _ (1 : Fin 2) * 128 ≤ (i 1).val ∧ (i 1).val < win0_3.index _ (1 : Fin 2) * 128 + 128
    rw [e31]; omega

/-- The output array after the region: `packed` of the three input arrays. -/
theorem final (c : Dev nD) :
    (dats m 0 c).arrAt 3 cfg0.N = packed (nodeArr m c) (edgeArr m c) (matArr m c) :=
  (dats m 0 c).arrAt_eq_of_cover 3 (packed (nodeArr m c) (edgeArr m c) (matArr m c))
    (fun t _ => flushed_eq m c t) cover

end Cert.KernelIdeal.EdgeValue

end
-- ==== Proof.KernelRun.lean ====
/-
  The kernel program's run, with its result named.

  After the region the host re-lays the region's [400000, 128] output to [1600000, 32]. The frame run leaves the output
  array at what the blocks wrote (KernelValue: the packed product of the three input arrays; KernelHost: what those
  arrays are), every other buffer at what the host operation after the region makes of it, and the arguments as
  launched. So the program's result is the re-laid packed product of the terms of KernelTerms.
-/
import proofs.«172145_j1520418423078_2_alg».proof.Proof.Gen.KernelIdeal.Frame
import proofs.«172145_j1520418423078_2_alg».proof.Proof.KernelTerms
import proofs.«172145_j1520418423078_2_alg».proof.Proof.KernelHost
import proofs.«172145_j1520418423078_2_alg».proof.Proof.KernelValue
import Idealize.ShloMosaic.Lib.Pipeline.Value
import Idealize.ShloMosaic.Lib.StableHlo.Run

set_option maxRecDepth 16384

noncomputable section

namespace Cert.KernelIdeal.EdgeRun

open Idealize.ShloMosaic Idealize.ShloMosaic.TcCoe Idealize.ShloMosaic.ValueIdx Idealize.SL.Sem Cert.KernelIdeal Cert.KernelIdeal.Gen
open Idealize.ShloMosaic.StableHlo
open Cert.KernelIdeal.EdgeHost

variable (m : (ℓ : Loc nD τ sig) → Buf (Elt Ideal) ℓ) (ρ : Dev nD → PrngReg)

/-- The program's result as a term of the argument arrays. -/
def result (c : Dev nD) : S1600000x32.Idx → EReal :=
  shapeCast S1600000x32
    (packed
      (shapeCast S400000x128
        (endpointSum (nodeProj (m ((c : Thread nD τ).loc main_arg0))
            (segSum (m ((c : Thread nD τ).loc main_arg1)) (m ((c : Thread nD τ).loc main_arg2)))
            (m ((c : Thread nD τ).loc main_arg3)) (m ((c : Thread nD τ).loc main_arg5)))
          (m ((c : Thread nD τ).loc main_arg1)))
        shapeCasts_S1600000x32_S400000x128)
      (shapeCast S400000x128 (m ((c : Thread nD τ).loc main_arg2)) shapeCasts_S1600000x32_S400000x128)
      (blockDiag (m ((c : Thread nD τ).loc main_arg4))))
    shapeCasts_S400000x128_S1600000x32

/-- The host operation after the region re-lays the region's output array. -/
theorem tail_eq (c : Dev nD) :
    (Pipeline.afterTail₀ cfgs (dats m) 0 (V0 m) [hostOps1] c main_v35 : S1600000x32.Idx → EReal)
      = shapeCast S1600000x32 ((dats m 0 c).arrAt 3 cfg0.N) shapeCasts_S400000x128_S1600000x32 := by
  unfold Pipeline.afterTail₀
  show StableHlo.after hostOps1 _ (Proc.devRef .tc main_v35) = _
  after_results
  have hw : Pipeline.withArrays (cfgs 0).spec c (V0 m c) (fun w => (dats m 0 c).arrAt w (cfgs 0).N) (Proc.devRef .tc main_v34) = (dats m 0 c).arrAt 3 cfg0.N :=
    Pipeline.withArrays_arr spec0 launch0.win.arr_inj c (V0 m c) _ 3
  rw [hw]
  rfl

/-- What the result buffer holds after the run: the re-laid packed product of the host's terms. -/
theorem result_eq (c : Dev nD) :
    (Pipeline.afterTail₀ cfgs (dats m) 0 (V0 m) [hostOps1] c main_v35 : S1600000x32.Idx → EReal) = result m c := by
  rw [tail_eq, Cert.KernelIdeal.EdgeValue.final]
  exact congrArg (fun z => shapeCast S1600000x32 z shapeCasts_S400000x128_S1600000x32)
    (congr (congr (congrArg packed (V_nodeSums m c)) (V_edges m c)) (V_blockDiag m c))

/-- Every weakly fair execution of the kernel program terminates with the result buffer at `result` and the argument
    arrays as launched. -/
theorem run : θ_run defs (onTc (τ := τ) (main (F := Ideal))) ⟨m, fun _ => 0, ρ⟩ fun r => ∀ c : Dev nD,
      r.2.mem ((c.tc : Thread nD τ).loc main_v35) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v35 (Pipeline.mem_restRefs_of main_v35 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.EdgeRun

end
-- ==== Proof.LibBlockSum.lean ====
/-
  A finite sum cut into consecutive blocks of one length.

  A sum over the first `a * b` naturals is the sum, over the `a` blocks in order, of each block's `b` terms: the term
  at position `j` of block `s` sits at `s * b + j`. Only associativity and commutativity of the addition are used, so
  the regrouping holds in any commutative monoid — in particular on the extended reals, infinities included. The second
  form reads the whole sum and every block's sum over `Fin` index types, as a contraction over `a * b` positions cut
  into `a` contractions over `b` positions meets it.
-/
import Mathlib.Algebra.BigOperators.Fin
import Mathlib.Data.Fintype.BigOperators

namespace Cert.LibBlockSum

open Finset

variable {β : Type*} [AddCommMonoid β]

/-- The sum of `g` over the naturals below `a * b`, block by block. -/
theorem sum_range_mul (g : ℕ → β) (a b : ℕ) :
    ∑ n ∈ range (a * b), g n = ∑ s ∈ range a, ∑ j ∈ range b, g (s * b + j) := by
  induction a with
  | zero => simp
  | succ a ih => rw [Nat.succ_mul, sum_range_add, ih, sum_range_succ]

/-- The same regrouping over `Fin` index types: a sum over `n = a * b` positions is the sum over the `a` blocks of each
    block's sum over its `b` positions. -/
theorem sum_fin_blocks (g : ℕ → β) (a b n : ℕ) (hn : n = a * b) :
    ∑ k : Fin n, g k.val = ∑ s ∈ range a, ∑ j : Fin b, g (s * b + j.val) := by
  subst hn
  rw [Fin.sum_univ_eq_sum_range g (a * b), sum_range_mul]
  exact sum_congr rfl fun s _ => (Fin.sum_univ_eq_sum_range (fun j => g (s * b + j)) b).symm

end Cert.LibBlockSum
-- ==== Proof.PackedSum.lean ====
/-
  The packed product, read back edge by edge.

  A [1600000, 32] array re-laid as [400000, 128] puts four consecutive edges on one row: edge e is quarter e % 4 of row
  e / 4. The 128×128 matrix has four copies of the 32×32 matrix wi on its diagonal blocks: its entry at row a·32 + k and
  column b·32 + o is wi (k, o) when a = b and 0 otherwise. A contraction over the 128 positions of a row against a column
  in quarter b therefore only meets the row's quarter b: cut the sum into four blocks of 32, three of which are sums of
  zeros. Only zero_mul, mul_zero, one_mul and the commutative-monoid laws of addition are used, all of which hold on
  the extended reals at the infinities too.
-/
import proofs.«172145_j1520418423078_2_alg».proof.Proof.KernelTerms
import proofs.«172145_j1520418423078_2_alg».proof.Proof.LibBlockSum
import Idealize.ShloMosaic.Lib.Pipeline.Value
import Idealize.ShloMosaic.Lib.ValueIdx
import Idealize.ShloMosaic.Lib.IdealHost

noncomputable section

open scoped BigOperators

namespace Cert.KernelIdeal.EdgeOut

open Idealize.ShloMosaic Idealize.ShloMosaic.ValueIdx Cert.KernelIdeal Cert.KernelIdeal.Gen Cert.KernelIdeal.EdgeHost

/-- Row number compared with column number, as words. -/
theorem eye_word (a b : Fin 4) :
    IntOp.cmpi .eq (IntOp.addi (BitVec.ofNat 32 a.val) 0#32) (BitVec.ofNat 32 b.val) = if a = b then 1#1 else 0#1 := by
  revert a b; decide

/-- The 4×4 identity: 1 on the diagonal, 0 off it. -/
theorem eye4_apply (a b : Fin 4) : eye4 (ix2 a b) = if a = b then 1 else 0 := by
  show (((IntOp.cmpi .eq (IntOp.addi (BitVec.ofNat 32 a.val) 0#32) (BitVec.ofNat 32 b.val)).toNat : ℝ) : EReal) = _
  rw [eye_word]
  split_ifs <;> simp

/-- The block-diagonal matrix at row a·32 + k, column b·32 + o: the identity's entry (a, b) times wi (k, o). -/
theorem blockDiag_apply (wi : FVec Ideal S32x32 .f32) (a b : Fin 4) (k o : Fin 32)
    (h1 : a.val * 32 + k.val < 128) (h2 : b.val * 32 + o.val < 128) :
    blockDiag wi (ix2 (⟨a.val * 32 + k.val, h1⟩ : Fin 128) (⟨b.val * 32 + o.val, h2⟩ : Fin 128))
      = eye4 (ix2 a b) * wi (ix2 k o) := by
  unfold blockDiag
  rw [shapeCast_apply _ shapeCasts_S4x32x4x32_S128x128 _ (ix4 a k b o) (by
    rw [Shape.rowMajor_val_four, Shape.rowMajor_val_two]
    show ((a.val * 32 + k.val) * 4 + b.val) * 32 + o.val = (a.val * 32 + k.val) * 128 + (b.val * 32 + o.val)
    omega)]
  rw [mulf_apply]
  rw [broadcastInDim_apply _ bcast_S4x1x4x1_S4x32x4x32_0_1_2_3 _ (ix4 a k b o) (ix4 a (0 : Fin 1) b (0 : Fin 1))
    (fun x => by fin_cases x <;> rfl)]
  rw [broadcastInDim_apply _ bcast_S4x4_S4x1x4x1_0_2 _ (ix4 a (0 : Fin 1) b (0 : Fin 1)) (ix2 a b)
    (fun x => by fin_cases x <;> rfl)]
  rw [broadcastInDim_apply _ bcast_S1x32x1x32_S4x32x4x32_0_1_2_3 _ (ix4 a k b o) (ix4 (0 : Fin 1) k (0 : Fin 1) o)
    (fun x => by fin_cases x <;> rfl)]
  rw [broadcastInDim_apply _ bcast_S32x32_S1x32x1x32_1_3 _ (ix4 (0 : Fin 1) k (0 : Fin 1) o) (ix2 k o)
    (fun x => by fin_cases x <;> rfl)]

/-- A sum over 128 positions, as four blocks of 32. -/
theorem sum_fin128 (f : Fin 128 → EReal) :
    ∑ n : Fin 128, f n = ∑ s : Fin 4, ∑ j : Fin 32, f ⟨s.val * 32 + j.val, by have := s.isLt; have := j.isLt; omega⟩ := by
  have h := Cert.LibBlockSum.sum_fin_blocks (fun n : ℕ => if hn : n < 128 then f ⟨n, hn⟩ else 0) 4 32 128 rfl
  have hl : ∑ n : Fin 128, f n = ∑ n : Fin 128, if hn : n.val < 128 then f ⟨n.val, hn⟩ else 0 :=
    Finset.sum_congr rfl fun n _ => by rw [dif_pos n.isLt]
  rw [hl, h, ← Fin.sum_univ_eq_sum_range
    (fun s => ∑ j : Fin 32, if hn : s * 32 + j.val < 128 then f ⟨s * 32 + j.val, hn⟩ else 0) 4]
  refine Finset.sum_congr rfl fun s _ => Finset.sum_congr rfl fun j _ => ?_
  have hlt : s.val * 32 + j.val < 128 := by have := s.isLt; have := j.isLt; omega
  rw [dif_pos hlt]

/-- The packed product re-laid to one edge per row: edge e, column o is g (e, o) plus row e of ew against column o
    of wi. -/
theorem packed_apply (g ew : FVec Ideal S1600000x32 .f32) (wi : FVec Ideal S32x32 .f32) (e : Fin 1600000) (o : Fin 32) :
    shapeCast S1600000x32
        (packed (shapeCast S400000x128 g shapeCasts_S1600000x32_S400000x128)
          (shapeCast S400000x128 ew shapeCasts_S1600000x32_S400000x128) (blockDiag wi))
        shapeCasts_S400000x128_S1600000x32 (ix2 e o)
      = g (ix2 e o) + ∑ k : Fin 32, ew (ix2 e k) * wi (ix2 k o) := by
  have he := e.isLt
  have ho := o.isLt
  have hr : e.val / 4 < 400000 := by omega
  have hb : e.val % 4 < 4 := by omega
  have hc : (⟨e.val % 4, hb⟩ : Fin 4).val * 32 + o.val < 128 := by show e.val % 4 * 32 + o.val < 128; omega
  rw [shapeCast_apply _ shapeCasts_S400000x128_S1600000x32 _
    (ix2 (⟨e.val / 4, hr⟩ : Fin 400000) (⟨(⟨e.val % 4, hb⟩ : Fin 4).val * 32 + o.val, hc⟩ : Fin 128)) (by
      rw [Shape.rowMajor_val_two, Shape.rowMajor_val_two]
      show e.val / 4 * 128 + (e.val % 4 * 32 + o.val) = e.val * 32 + o.val
      omega)]
  show shapeCast S400000x128 g shapeCasts_S1600000x32_S400000x128
        (ix2 (⟨e.val / 4, hr⟩ : Fin 400000) (⟨(⟨e.val % 4, hb⟩ : Fin 4).val * 32 + o.val, hc⟩ : Fin 128))
      + ∑ n : Fin 128, shapeCast S400000x128 ew shapeCasts_S1600000x32_S400000x128 (ix2 (⟨e.val / 4, hr⟩ : Fin 400000) n)
          * blockDiag wi (ix2 n (⟨(⟨e.val % 4, hb⟩ : Fin 4).val * 32 + o.val, hc⟩ : Fin 128))
      = _
  rw [shapeCast_apply g shapeCasts_S1600000x32_S400000x128 _ (ix2 e o) (by
      rw [Shape.rowMajor_val_two, Shape.rowMajor_val_two]
      show e.val * 32 + o.val = e.val / 4 * 128 + (e.val % 4 * 32 + o.val)
      omega)]
  congr 1
  rw [sum_fin128]
  rw [Finset.sum_eq_single (⟨e.val % 4, hb⟩ : Fin 4)]
  · refine Finset.sum_congr rfl fun j _ => ?_
    rw [blockDiag_apply, eye4_apply, if_pos rfl, one_mul]
    rw [shapeCast_apply ew shapeCasts_S1600000x32_S400000x128 _ (ix2 e j) (by
      rw [Shape.rowMajor_val_two, Shape.rowMajor_val_two]
      have := j.isLt
      show e.val * 32 + j.val = e.val / 4 * 128 + (e.val % 4 * 32 + j.val)
      omega)]
  · intro s _ hs
    refine Finset.sum_eq_zero fun j _ => ?_
    rw [blockDiag_apply, eye4_apply, if_neg hs, zero_mul, mul_zero]
  · intro h
    exact absurd (Finset.mem_univ _) h

end Cert.KernelIdeal.EdgeOut

end
-- ==== Proof.LibRealEntries.lean ====
/-
  Real-valued entries on the extended reals.

  At the exact instance a float is an extended real, and the laws that join two arrangements of one computation
  (distributing a factor over a difference, regrouping a mixed sum) hold for real numbers but fail at the infinities.
  This file says when an extended real IS a real number (`IsReal`), that the property is kept by sums, differences,
  products, maxima, choices, finite sums, division by a nonzero real and the reciprocal square root of a positive real or
  of anything at least one, that a finite sum of reals is the real sum, and the one algebraic identity of batch
  normalisation: scaling then shifting by a precomputed pair equals centring, scaling and shifting.
-/
import Idealize.ShloMosaic.PureOps.Ideal

namespace RealEntries

open Idealize.ShloMosaic

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem IsReal.ne_top {x : EReal} (h : IsReal x) : x ≠ ⊤ := by obtain ⟨r, rfl⟩ := h; exact EReal.coe_ne_top r
theorem IsReal.ne_bot {x : EReal} (h : IsReal x) : x ≠ ⊥ := by obtain ⟨r, rfl⟩ := h; exact EReal.coe_ne_bot r

/-- An extended real that is neither infinity is a real number. -/
theorem isReal_of_ne {x : EReal} (ht : x ≠ ⊤) (hb : x ≠ ⊥) : IsReal x := by
  induction x using EReal.rec with
  | bot => exact absurd rfl hb
  | top => exact absurd rfl ht
  | coe r => exact ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.neg {x : EReal} (hx : IsReal x) : IsReal (-x) := by
  obtain ⟨a, rfl⟩ := hx; exact ⟨-a, (EReal.coe_neg a).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem IsReal.ite {p : Prop} [Decidable p] {x y : EReal} (hx : IsReal x) (hy : IsReal y) : IsReal (if p then x else y) := by
  split <;> assumption

/-- A finite sum of real numbers is a real number. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The extended-real sum of real numbers is their real sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- Division by a nonzero real keeps a real number real. -/
theorem IsReal.div_coe {x : EReal} (hx : IsReal x) {y : ℝ} (hy : y ≠ 0) : IsReal (Ideal.div x (y : EReal)) := by
  rw [Ideal.div_coe hy]; exact hx.mul (isReal_coe _)

/-- The reciprocal square root of a positive real is a real number. -/
theorem isReal_rsqrt_of_pos {r : ℝ} (h : 0 < r) : IsReal (Ideal.rsqrt (r : EReal)) := by
  rw [Ideal.rsqrt_coe, if_neg (not_lt.mpr h.le), if_neg h.ne']; exact isReal_coe _

/-- The reciprocal square root of anything at least one — plus infinity included — is a real number. -/
theorem isReal_rsqrt_of_one_le {x : EReal} (h : 1 ≤ x) : IsReal (Ideal.rsqrt x) := by
  induction x using EReal.rec with
  | bot => exact absurd (le_bot_iff.mp h) (EReal.coe_ne_bot 1)
  | top => rw [Ideal.rsqrt_top]; exact isReal_zero
  | coe r =>
    have hr : (1 : ℝ) ≤ r := by exact_mod_cast h
    exact isReal_rsqrt_of_pos (by linarith)

/-- Batch normalisation's two arrangements agree on real numbers: with `s = g·r`, `a·s + (b − m·s) = ((a − m)·r)·g + b`. -/
theorem bn_affine (a m r g b : ℝ) :
    (a : EReal) * ((g : EReal) * (r : EReal)) + ((b : EReal) - (m : EReal) * ((g : EReal) * (r : EReal)))
      = (((a : EReal) - (m : EReal)) * (r : EReal)) * (g : EReal) + (b : EReal) := by
  rw [← EReal.coe_mul, ← EReal.coe_mul, ← EReal.coe_mul, ← EReal.coe_sub, ← EReal.coe_add, ← EReal.coe_sub, ← EReal.coe_mul,
    ← EReal.coe_mul, ← EReal.coe_add]
  congr 1; ring

end RealEntries
-- ==== Proof.Spec.lean ====
/-
  One message-passing layer of a graph network, written as a function of its inputs, in two arrangements.

  There are 50000 nodes with 32 features each (`x`), 1600000 edges with 32 weights each (`ew`), and three 32×32
  matrices `wx`, `wi`, `wj`. Every edge `e` has a source row `rs e` and a destination row `rd e`; `S` is a
  second node table (the edge weights summed per source node). The layer's output at edge `e`, column `o`, is

    Σ_k (x[rs e, k] + x[rd e, k]) · wx[k, o]  +  Σ_k ew[e, k] · wi[k, o]  +  Σ_k (S[rs e, k] + S[rd e, k]) · wj[k, o]

  (`refOut`: project the summed endpoint rows). The other arrangement first projects every NODE,
  `T[n, o] = Σ_k x[n, k] · wx[k, o] + Σ_k S[n, k] · wj[k, o]` (`nodeTable`), and then adds the two endpoint rows of
  `T` to the edge's own projection (`kerOut`). The two agree when the entries of `x`, `S`, `wx`, `wj` are real
  numbers: the step between them distributes a product over a sum, which fails at the infinities.
-/
import Idealize.ShloMosaic.PureOps.Ideal
import Idealize.ShloMosaic.Lib.ValueIdx
import proofs.«172145_j1520418423078_2_alg».proof.Proof.LibRealEntries

noncomputable section

open scoped BigOperators

namespace Cert.EdgeSpec

open Idealize.ShloMosaic Idealize.ShloMosaic.ValueIdx

/-- A node table: 50000 rows of 32. -/
abbrev SN : Shape := ⟨2, ![50000, 32]⟩
/-- An edge table: 1600000 rows of 32. -/
abbrev SE : Shape := ⟨2, ![1600000, 32]⟩
/-- A 32×32 matrix. -/
abbrev SW : Shape := ⟨2, ![32, 32]⟩

/-- Every entry of an array of extended reals is a real number. -/
def RealArr {s : Shape} (f : s.Idx → EReal) : Prop := ∀ i, RealEntries.IsReal (f i)

/-- Project the summed endpoint rows, edge by edge. -/
def refOut (x S : SN.Idx → EReal) (ew : SE.Idx → EReal) (wx wi wj : SW.Idx → EReal)
    (rs rd : Fin 1600000 → Fin 50000) : SE.Idx → EReal := fun j =>
  ((∑ k : Fin 32, (x (ix2 (rs (j 0)) k) + x (ix2 (rd (j 0)) k)) * wx (ix2 k (j 1)))
      + ∑ k : Fin 32, ew (ix2 (j 0) k) * wi (ix2 k (j 1)))
    + ∑ k : Fin 32, (S (ix2 (rs (j 0)) k) + S (ix2 (rd (j 0)) k)) * wj (ix2 k (j 1))

/-- Every node projected once. -/
def nodeTable (x S : SN.Idx → EReal) (wx wj : SW.Idx → EReal) : SN.Idx → EReal := fun j =>
  (∑ k : Fin 32, x (ix2 (j 0) k) * wx (ix2 k (j 1))) + ∑ k : Fin 32, S (ix2 (j 0) k) * wj (ix2 k (j 1))

/-- The two endpoint rows of the projected node table, plus the edge's own projection. -/
def kerOut (x S : SN.Idx → EReal) (ew : SE.Idx → EReal) (wx wi wj : SW.Idx → EReal)
    (rs rd : Fin 1600000 → Fin 50000) : SE.Idx → EReal := fun j =>
  (nodeTable x S wx wj (ix2 (rs (j 0)) (j 1)) + nodeTable x S wx wj (ix2 (rd (j 0)) (j 1)))
    + ∑ k : Fin 32, ew (ix2 (j 0) k) * wi (ix2 k (j 1))

end Cert.EdgeSpec

end
-- ==== Proof.LibRowGather.lean ====
/-
  A gather of whole rows of a matrix, read by coordinates, for any extents.

  An `[n, c]` matrix is gathered at `e` start indices laid out as a column `[e, 1]`: every start index names a row,
  the whole row (a `1 × c` slice) is taken, and the result is the `[e, c]` matrix of the taken rows. In gather's
  dimension numbers: the result's axis 1 is the offset axis, the operand's axis 0 is collapsed and is the one axis the
  start index addresses, there are no batching axes, the index vector lies along axis 1 of the start indices, and the
  slice sizes are `[1, c]`. For ANY extents `n`, `e`, `c` (with `n` positive) and any index width, entry `(p, q)` of
  the result is entry `(r, q)` of the operand, where `r` is start index `p` read as a signed integer and clamped into
  `[0, n − 1]` (`rowAt`, `gather_row_apply`). A program's printed gather record with these lists is `rowDims n e c _`
  by `rfl`.
-/
import Idealize.ShloMosaic.PureOps.ShapeOps
import Idealize.ShloMosaic.PureOps.Dims
import Idealize.ShloMosaic.Lib.ValueIdx

namespace Cert.RowGather

open Idealize.ShloMosaic Idealize.ShloMosaic.ValueIdx

variable {α : Type}

/-- The dimension numbers of a gather of whole rows: operand `[n, c]`, start indices `[e, 1]`, result `[e, c]`.
    Their side conditions `wf` are decided on a program's literal extents. -/
abbrev rowDims (n e c : Nat)
    (wf : GatherDims.WF ⟨2, ![n, c]⟩ ⟨2, ![e, 1]⟩ ⟨2, ![e, c]⟩ [1] [0] [] [0] [] 1 ![1, c]) :
    GatherDims ⟨2, ![n, c]⟩ ⟨2, ![e, 1]⟩ ⟨2, ![e, c]⟩ where
  offsetDims := [1]
  collapsedSliceDims := [0]
  operandBatchingDims := []
  startIndicesBatchingDims := []
  startIndexMap := [0]
  indexVectorDim := 1
  sliceSizes := ![1, c]
  wf := wf

/-- The row that start index `p` names: the index read as a signed integer, clamped into `[0, n − 1]`. -/
def rowAt {n e w : Nat} (hn : 0 < n) (idx : IVec ⟨2, ![e, 1]⟩ w) (p : Fin e) : Fin n :=
  ⟨min (idx (ix2 p 0)).toInt.toNat (n - 1), by omega⟩

/-- THE ROW GATHER READ AT `(p, q)`: the operand's entry in column `q` of the row that start index `p` names. -/
theorem gather_row_apply {n e c w : Nat} (hn : 0 < n)
    (wf : GatherDims.WF ⟨2, ![n, c]⟩ ⟨2, ![e, 1]⟩ ⟨2, ![e, c]⟩ [1] [0] [] [0] [] 1 ![1, c])
    (x : (⟨2, ![n, c]⟩ : Shape).Idx → α) (idx : IVec ⟨2, ![e, 1]⟩ w) (p : Fin e) (q : Fin c) :
    Host.gather (rowDims n e c wf) x idx (ix2 p q) = x (ix2 (rowAt hn idx p) q) := by
  unfold Host.gather
  congr 1
  funext a
  refine Fin.ext ?_
  match a with
  | ⟨0, _⟩ =>
    show (rowDims n e c wf).start (ix2 p q) idx 0 + (rowDims n e c wf).batchCoord (ix2 p q) 0
      + (rowDims n e c wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims n e c wf).startIndexMap from List.mem_singleton.mpr rfl)]
    have hsi : (rowDims n e c wf).siIdx (ix2 p q) ⟨List.idxOf (0 : Fin 2) (rowDims n e c wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    show (rowDims n e c wf).start (ix2 p q) idx 1 + (rowDims n e c wf).batchCoord (ix2 p q) 1
      + (rowDims n e c wf).offCoord (ix2 p q) 1 = q.val
    have hk : (1 : Fin 2) ∈ (rowDims n e c wf).sKept :=
      (GatherDims.mem_sKept _ _).mpr ⟨fun h => absurd (List.mem_singleton.mp h) (show ¬ (1 : Fin 2) = 0 by decide), List.not_mem_nil⟩
    rw [GatherDims.batchCoord_eq_zero _ _ _ List.not_mem_nil]
    unfold GatherDims.start
    rw [dif_neg (show (1 : Fin 2) ∉ (rowDims n e c wf).startIndexMap from
      fun h => absurd (List.mem_singleton.mp h) (show ¬ (1 : Fin 2) = 0 by decide))]
    unfold GatherDims.offCoord
    rw [dif_pos hk]
    simp only [Nat.add_zero, Nat.zero_add]
    rfl

end Cert.RowGather
-- ==== Proof.EndpointSum.lean ====
/-
  The kernel arrangement's endpoint term, read entry by entry.

  Before the kernel region the host projects every node once, `T = x · wx + S · wj` (two plain 50000×32 by 32×32
  products, added), and then, for every edge, takes the two rows of `T` that the edge's endpoints name (two gathers
  of whole rows, at the wrapped source column and the wrapped destination column of the edge list) and adds them.
  Read at `(n, o)`, `T` is the specification's `nodeTable`; read at `(e, o)`, the endpoint sum is `nodeTable` at the
  clamped source row plus `nodeTable` at the clamped destination row. Adding the edge's own projection gives the
  specification's `kerOut`.
-/
import proofs.«172145_j1520418423078_2_alg».proof.Proof.KernelTerms
import proofs.«172145_j1520418423078_2_alg».proof.Proof.Spec
import proofs.«172145_j1520418423078_2_alg».proof.Proof.LibRowGather
import proofs.«172145_j1520418423078_2_alg».proof.Proof.LibPlainDot
import Idealize.ShloMosaic.Lib.ValueIdx

noncomputable section

open scoped BigOperators

namespace Cert.KernelIdeal.EdgeOut

open Cert.KernelIdeal Cert.KernelIdeal.Gen Cert.KernelIdeal.EdgeHost
open Idealize.ShloMosaic Idealize.ShloMosaic.ValueIdx

/-- The program's gather record is the gather of whole rows of a 50000 × 32 table at 1600000 start indices. -/
theorem gatherDims_eq :
    gather_S50000x32_S1600000x1_S1600000x32_1_0_n_n_0_1_132
      = Cert.RowGather.rowDims 50000 1600000 32
          Facts₀.gather_S50000x32_S1600000x1_S1600000x32_1_0_n_n_0_1_132_wf := rfl

/-- The program's node projection record is the plain 50000×32 by 32×32 product. -/
theorem dotDims_eq :
    dot_S50000x32_S32x32_S50000x32_1_0_0_1_n_n = DotDims.plain 50000 32 32 := rfl

/-- The program's gather at `(e, o)`: column `o` of the row that start index `e` names. -/
theorem gather_at (T : FVec Ideal S50000x32 .f32) (idx : IVec S1600000x1 32) (e : Fin 1600000) (o : Fin 32) :
    Host.gather gather_S50000x32_S1600000x1_S1600000x32_1_0_n_n_0_1_132 T idx (ix2 e o)
      = T (ix2 (Cert.RowGather.rowAt (n := 50000) (by decide) idx e) o) := by
  rw [gatherDims_eq]
  exact Cert.RowGather.gather_row_apply (by decide) _ T idx e o

/-- One node projection at `(n, o)`: the sum over the 32 contraction positions. -/
theorem dot_at (l : FVec Ideal S50000x32 .f32) (w : FVec Ideal S32x32 .f32) (n : Fin 50000) (o : Fin 32) :
    Host.dotGeneral dot_S50000x32_S32x32_S50000x32_1_0_0_1_n_n none l w (ix2 n o)
      = ∑ k : Fin 32, l (ix2 n k) * w (ix2 k o) := by
  rw [dotDims_eq]
  show FloatOps.dotGeneral (DotDims.plain 50000 32 32) none _ l w (ix2 n o) = _
  exact Cert.LibPlainDot.dotGeneral_apply 50000 32 32 none _ l w (ix2 n o)

/-- The projected node table is the specification's node table. -/
theorem nodeProj_apply (x S : FVec Ideal S50000x32 .f32) (wx wj : FVec Ideal S32x32 .f32)
    (n : Fin 50000) (o : Fin 32) :
    nodeProj x S wx wj (ix2 n o) = Cert.EdgeSpec.nodeTable x S wx wj (ix2 n o) := by
  show FloatOps.addf (Host.dotGeneral dot_S50000x32_S32x32_S50000x32_1_0_0_1_n_n none x wx (ix2 n o))
      (Host.dotGeneral dot_S50000x32_S32x32_S50000x32_1_0_0_1_n_n none S wj (ix2 n o)) = _
  rw [Ideal.addf_def, dot_at, dot_at]
  rfl

/-- THE ENDPOINT SUM AT `(e, o)`: the node table at the clamped source row plus the node table at the clamped
    destination row, both in column `o`. -/
theorem endpointSum_apply (x S : FVec Ideal S50000x32 .f32) (wx wj : FVec Ideal S32x32 .f32)
    (x1 : IVec S2x1600000 32) (e : Fin 1600000) (o : Fin 32) :
    endpointSum (nodeProj x S wx wj) x1 (ix2 e o)
      = Cert.EdgeSpec.nodeTable x S wx wj
          (ix2 (Cert.RowGather.rowAt (n := 50000) (by decide) (wrapCol (srcVec x1)) e) o)
        + Cert.EdgeSpec.nodeTable x S wx wj
          (ix2 (Cert.RowGather.rowAt (n := 50000) (by decide) (wrapCol (dstVec x1)) e) o) := by
  show FloatOps.addf
      (Host.gather gather_S50000x32_S1600000x1_S1600000x32_1_0_n_n_0_1_132 (nodeProj x S wx wj)
        (wrapCol (srcVec x1)) (ix2 e o))
      (Host.gather gather_S50000x32_S1600000x1_S1600000x32_1_0_n_n_0_1_132 (nodeProj x S wx wj)
        (wrapCol (dstVec x1)) (ix2 e o)) = _
  rw [Ideal.addf_def, gather_at, gather_at, nodeProj_apply, nodeProj_apply]

/-- THE KERNEL ARRANGEMENT IS `kerOut`: the endpoint sum plus the edge's own projection. -/
theorem kerOut_form (x S : FVec Ideal S50000x32 .f32) (ew : FVec Ideal S1600000x32 .f32)
    (wx wi wj : FVec Ideal S32x32 .f32) (x1 : IVec S2x1600000 32) :
    (fun j : S1600000x32.Idx =>
        endpointSum (nodeProj x S wx wj) x1 j + ∑ k : Fin 32, ew (ix2 (j 0) k) * wi (ix2 k (j 1)))
      = Cert.EdgeSpec.kerOut x S ew wx wi wj
          (Cert.RowGather.rowAt (n := 50000) (by decide) (wrapCol (srcVec x1)))
          (Cert.RowGather.rowAt (n := 50000) (by decide) (wrapCol (dstVec x1))) := by
  funext j
  obtain ⟨e, o, rfl⟩ : ∃ (e : Fin 1600000) (o : Fin 32), j = ix2 e o := ⟨j 0, j 1, ValueIdx.eq_ix2 j⟩
  rw [endpointSum_apply]
  rfl

end Cert.KernelIdeal.EdgeOut

end
-- ==== Proof.Algebra.lean ====
/-
  The two arrangements of the layer agree when the node tables and the two node-side matrices have real entries.

  Per edge and output column, with a, b the two endpoint rows of the first node table, p, q the two endpoint rows of the
  second, u, v the matching columns of the two matrices and E the edge's own term,

    ((Σ a·u + Σ p·v) + (Σ b·u + Σ q·v)) + E  =  (Σ (a+b)·u + E) + Σ (p+q)·v.

  The node part is an identity of real numbers (a product distributed over a sum, then a regrouping); E is an arbitrary
  extended real and is only moved by commutativity and associativity of addition, which hold at the infinities as well.
-/
import proofs.«172145_j1520418423078_2_alg».proof.Proof.Spec

noncomputable section

open scoped BigOperators

namespace Cert.EdgeSpec

open Idealize.ShloMosaic Idealize.ShloMosaic.ValueIdx

/-- The regrouping over real rows and columns, with an arbitrary extended-real edge term. -/
theorem regroup_real {n : Nat} (a b p q u v : Fin n → ℝ) (E : EReal) :
    (((∑ k : Fin n, (a k : EReal) * (u k : EReal)) + ∑ k : Fin n, (p k : EReal) * (v k : EReal))
        + ((∑ k : Fin n, (b k : EReal) * (u k : EReal)) + ∑ k : Fin n, (q k : EReal) * (v k : EReal))) + E
      = ((∑ k : Fin n, ((a k : EReal) + (b k : EReal)) * (u k : EReal)) + E)
          + ∑ k : Fin n, ((p k : EReal) + (q k : EReal)) * (v k : EReal) := by
  simp only [← EReal.coe_mul, ← EReal.coe_add, RealEntries.coe_sum]
  conv_rhs => rw [add_right_comm]
  rw [← EReal.coe_add]
  congr 2
  simp only [add_mul, Finset.sum_add_distrib]
  ring

/-- Projecting every node first and adding the endpoint rows equals projecting the summed endpoint rows. -/
theorem kerOut_eq_refOut (x S : SN.Idx → EReal) (ew : SE.Idx → EReal) (wx wi wj : SW.Idx → EReal)
    (rs rd : Fin 1600000 → Fin 50000)
    (hx : RealArr x) (hS : RealArr S) (hwx : RealArr wx) (hwj : RealArr wj) :
    kerOut x S ew wx wi wj rs rd = refOut x S ew wx wi wj rs rd := by
  funext j
  choose a ha using fun k : Fin 32 => hx (ix2 (rs (j 0)) k)
  choose b hb using fun k : Fin 32 => hx (ix2 (rd (j 0)) k)
  choose p hp using fun k : Fin 32 => hS (ix2 (rs (j 0)) k)
  choose q hq using fun k : Fin 32 => hS (ix2 (rd (j 0)) k)
  choose u hu using fun k : Fin 32 => hwx (ix2 k (j 1))
  choose v hv using fun k : Fin 32 => hwj (ix2 k (j 1))
  show (((∑ k : Fin 32, x (ix2 (rs (j 0)) k) * wx (ix2 k (j 1))) + ∑ k : Fin 32, S (ix2 (rs (j 0)) k) * wj (ix2 k (j 1)))
        + ((∑ k : Fin 32, x (ix2 (rd (j 0)) k) * wx (ix2 k (j 1))) + ∑ k : Fin 32, S (ix2 (rd (j 0)) k) * wj (ix2 k (j 1))))
        + ∑ k : Fin 32, ew (ix2 (j 0) k) * wi (ix2 k (j 1))
      = ((∑ k : Fin 32, (x (ix2 (rs (j 0)) k) + x (ix2 (rd (j 0)) k)) * wx (ix2 k (j 1)))
          + ∑ k : Fin 32, ew (ix2 (j 0) k) * wi (ix2 k (j 1)))
        + ∑ k : Fin 32, (S (ix2 (rs (j 0)) k) + S (ix2 (rd (j 0)) k)) * wj (ix2 k (j 1))
  simp only [ha, hb, hp, hq, hu, hv]
  exact regroup_real a b p q u v _

end Cert.EdgeSpec

end
-- ==== Proof.LibRowScatter.lean ====
/-
  An accumulating scatter of whole rows, read at one entry.

  The operand is an n×c matrix, the updates an e×c matrix, and the scatter indices an e×1 column of integers: update
  row r is added into operand row t(r), where t(r) is entry (r, 0) of the indices read as a SIGNED integer and NOT
  clamped; a row whose target is outside [0, n) is dropped. On the extended reals the accumulated result at entry
  (s, q) is therefore the operand's entry plus the sum, over the update rows r whose target is s, of update entry
  (r, q) — written below as a sum over all r of an `if`. Stated for the dimension record `rowDims n e c`
  (update window axis [1], inserted window axis [0], scatter axis to operand axis [0], index vector axis 1), for any
  extents and any integer width; a printed record with those four lists is this record (they differ in a proof field).
-/
import Idealize.ShloMosaic.Lib.ValueIdx
import Idealize.ShloMosaic.PureOps.Ideal.Laws

noncomputable section

open scoped BigOperators

namespace Cert.LibRowScatter

open Idealize.ShloMosaic Idealize.ShloMosaic.ValueIdx

/-- Scatter the rows of an e×c matrix into an n×c matrix at e row numbers laid as a column e×1. -/
def rowDims (n e c : Nat) (wf : ScatterDims.WF ⟨2, ![n, c]⟩ ⟨2, ![e, 1]⟩ ⟨2, ![e, c]⟩ [1] [0] [0] 1) :
    ScatterDims ⟨2, ![n, c]⟩ ⟨2, ![e, 1]⟩ ⟨2, ![e, c]⟩ where
  updateWindowDims := [1]
  insertedWindowDims := [0]
  scatterDimsToOperandDims := [0]
  indexVectorDim := 1
  wf := wf

variable {n e c w : ℕ} (wf : ScatterDims.WF ⟨2, ![n, c]⟩ ⟨2, ![e, 1]⟩ ⟨2, ![e, c]⟩ [1] [0] [0] 1)

/-- On the row axis the window of update entry (r, q) starts at the r-th scatter index, read signed. -/
theorem start_zero (r : Fin e) (q : Fin c) (idx : IVec ⟨2, ![e, 1]⟩ w) :
    (rowDims n e c wf).start (ix2 r q) idx 0 = (idx (ix2 r 0)).toInt := by
  unfold ScatterDims.start
  rw [dif_pos (show (0 : Fin 2) ∈ (rowDims n e c wf).scatterDimsToOperandDims from List.mem_singleton.mpr rfl)]
  refine congrArg (fun k => (idx k).toInt) ?_
  funext b
  match b with
  | ⟨0, _⟩ => rfl
  | ⟨1, _⟩ => rfl

/-- On the column axis the window starts at 0: no scatter index names that axis. -/
theorem start_one (r : Fin e) (q : Fin c) (idx : IVec ⟨2, ![e, 1]⟩ w) :
    (rowDims n e c wf).start (ix2 r q) idx 1 = 0 := by
  unfold ScatterDims.start
  rw [dif_neg (show ¬ (1 : Fin 2) ∈ (rowDims n e c wf).scatterDimsToOperandDims from by
    intro h; exact absurd (congrArg Fin.val (List.mem_singleton.mp h)) (by decide : ¬ (1 : ℕ) = 0))]

/-- The row axis is an inserted axis: the window has no extent along it. -/
theorem window_zero (r : Fin e) (q : Fin c) : (rowDims n e c wf).window (ix2 r q) 0 = 0 := by
  unfold ScatterDims.window
  rw [dif_neg (show ¬ (0 : Fin 2) ∈ (rowDims n e c wf).sKept from by
    show ¬ (0 : Fin 2) ∈ (List.finRange 2).filter (fun a => a ∉ [(0 : Fin 2)])
    decide)]

/-- Along the column axis the window coordinate of update entry (r, q) is q. -/
theorem window_one (r : Fin e) (q : Fin c) : (rowDims n e c wf).window (ix2 r q) 1 = q.val := by
  unfold ScatterDims.window
  rw [dif_pos (show (1 : Fin 2) ∈ (rowDims n e c wf).sKept from by
    show (1 : Fin 2) ∈ (List.finRange 2).filter (fun a => a ∉ [(0 : Fin 2)])
    decide)]
  rfl

/-- Update entry (r, q') lands on operand entry (s, q) exactly when the r-th scatter index, read signed, is s and
    the columns agree. -/
theorem resultIdx?_eq_some_iff (r : Fin e) (q' : Fin c) (idx : IVec ⟨2, ![e, 1]⟩ w) (s : Fin n) (q : Fin c) :
    (rowDims n e c wf).resultIdx? (ix2 r q') idx = some (ix2 s q)
      ↔ (idx (ix2 r 0)).toInt = (s.val : ℤ) ∧ q' = q := by
  have hs0 := start_zero wf r q' idx
  have hs1 := start_one wf r q' idx
  have hw0 := window_zero wf r q'
  have hw1 := window_one wf r q'
  have hsn : s.val < n := s.isLt
  have hqc : q'.val < c := q'.isLt
  unfold ScatterDims.resultIdx?
  constructor
  · intro h
    split at h
    · have h' := Option.some.inj h
      have h0 : ((rowDims n e c wf).start (ix2 r q') idx 0 + ((rowDims n e c wf).window (ix2 r q') 0 : ℕ)).toNat = s.val :=
        congrArg (fun f : (⟨2, ![n, c]⟩ : Shape).Idx => (f 0).val) h'
      have h1 : ((rowDims n e c wf).start (ix2 r q') idx 1 + ((rowDims n e c wf).window (ix2 r q') 1 : ℕ)).toNat = q.val :=
        congrArg (fun f : (⟨2, ![n, c]⟩ : Shape).Idx => (f 1).val) h'
      rename_i hb
      have hb0 := hb 0
      rw [hs0, hw0] at h0 hb0
      rw [hs1, hw1] at h1
      refine ⟨by omega, Fin.ext (by omega)⟩
    · exact absurd h (by simp)
  · rintro ⟨ht, rfl⟩
    have hall : ∀ a, 0 ≤ (rowDims n e c wf).start (ix2 r q') idx a + ((rowDims n e c wf).window (ix2 r q') a : ℕ)
        ∧ (rowDims n e c wf).start (ix2 r q') idx a + ((rowDims n e c wf).window (ix2 r q') a : ℕ) < (⟨2, ![n, c]⟩ : Shape).size a := by
      intro a
      match a with
      | ⟨0, _⟩ =>
        show 0 ≤ (rowDims n e c wf).start (ix2 r q') idx 0 + ((rowDims n e c wf).window (ix2 r q') 0 : ℕ)
          ∧ (rowDims n e c wf).start (ix2 r q') idx 0 + ((rowDims n e c wf).window (ix2 r q') 0 : ℕ) < (n : ℤ)
        rw [hs0, hw0, ht]; omega
      | ⟨1, _⟩ =>
        show 0 ≤ (rowDims n e c wf).start (ix2 r q') idx 1 + ((rowDims n e c wf).window (ix2 r q') 1 : ℕ)
          ∧ (rowDims n e c wf).start (ix2 r q') idx 1 + ((rowDims n e c wf).window (ix2 r q') 1 : ℕ) < (c : ℤ)
        rw [hs1, hw1]; omega
    rw [dif_pos hall]
    refine congrArg some (funext fun a => Fin.ext ?_)
    match a with
    | ⟨0, _⟩ =>
      show ((rowDims n e c wf).start (ix2 r q') idx 0 + ((rowDims n e c wf).window (ix2 r q') 0 : ℕ)).toNat = s.val
      rw [hs0, hw0, ht]; omega
    | ⟨1, _⟩ =>
      show ((rowDims n e c wf).start (ix2 r q') idx 1 + ((rowDims n e c wf).window (ix2 r q') 1 : ℕ)).toNat = q'.val
      rw [hs1, hw1]; omega

/-- The accumulating row scatter at entry (s, q), on the extended reals: the operand's entry plus the sum over the
    update rows whose signed target is s of their entry in column q. -/
theorem scatterAdd_apply {φ : FTy} (x : FVec Ideal ⟨2, ![n, c]⟩ φ) (idx : IVec ⟨2, ![e, 1]⟩ w)
    (upd : FVec Ideal ⟨2, ![e, c]⟩ φ) (s : Fin n) (q : Fin c) :
    Host.scatterAdd (F := Ideal) (rowDims n e c wf) x idx upd (ix2 s q)
      = x (ix2 s q) + ∑ r : Fin e, if (idx (ix2 r 0)).toInt = (s.val : ℤ) then upd (ix2 r q) else 0 := by
  show x (ix2 s q) + ∑ j ∈ Finset.univ.filter (fun j => (rowDims n e c wf).resultIdx? j idx = some (ix2 s q)), upd j = _
  congr 1
  rw [Finset.sum_filter, sum_idx2]
  refine Finset.sum_congr rfl fun r _ => ?_
  simp only [resultIdx?_eq_some_iff]
  by_cases hc : (idx (ix2 r 0)).toInt = (s.val : ℤ)
  · simp only [hc, true_and]
    rw [Finset.sum_ite_eq' Finset.univ q (fun b => upd (ix2 r b))]
    simp
  · simp [hc]

end Cert.LibRowScatter

end
-- ==== Proof.Finite.lean ====
/-
  Real entries, from the precondition and through the scatter.

  The precondition says of each floating-point input that every entry's absolute value is below plus infinity. On the
  extended reals the absolute value of x is max x (-x), which is plus infinity at both infinities, so an entry that
  passes is neither infinity: it is a real number. The scatter of the reference adds rows of the edge table into a table
  of zeros; an entry of the result is zero plus a finite sum of entries of the edge table, so it is a real number
  whenever the edge table's entries are.
-/
import proofs.«172145_j1520418423078_2_alg».proof.Proof.Spec
import proofs.«172145_j1520418423078_2_alg».proof.Defs
import proofs.«172145_j1520418423078_2_alg».proof.Proof.Gen.Pre_finite_inputs
import proofs.«172145_j1520418423078_2_alg».proof.Proof.Gen.ReferenceIdeal.Read
import proofs.«172145_j1520418423078_2_alg».proof.Proof.LibRowScatter
import Idealize.ShloMosaic.Lib.ReduceAll

noncomputable section

open scoped BigOperators

namespace Cert.EdgeFinite

open Idealize.ShloMosaic Idealize.ShloMosaic.ValueIdx Idealize.SL.Sem
open Cert.EdgeSpec RealEntries

/-- The rank-0 shape has one index. -/
instance : Subsingleton Cert.Pre_finite_inputs.S_.Idx := ⟨fun a b => funext fun d => d.elim0⟩

/-- The word 0x7F800000 denotes plus infinity. -/
theorem inf_word : Ideal.ofBits .f32 0x7F800000#32 = ⊤ := by simp [Ideal.ofBits, Ideal.ieee]

/-- An extended real whose absolute value is below plus infinity is a real number. -/
theorem isReal_of_abs_lt (y : EReal) (e : Ideal.cmp .olt (max y (-y)) (Ideal.ofBits .f32 0x7F800000#32) = 1#1) :
    IsReal y := by
  rw [inf_word] at e
  induction y using EReal.rec with
  | bot => simp [Ideal.cmp] at e
  | top => simp [Ideal.cmp] at e
  | coe r => exact ⟨r, rfl⟩

/-- The entry-wise test of the precondition, at one index of an array of any shape. -/
theorem isReal_of_test {s : Shape} (x : FVec Ideal s .f32) (h : Cert.Pre_finite_inputs.S_.BroadcastsInDim s ![])
    (i : s.Idx)
    (e : cmpf .olt (Host.absf x) (broadcastInDim s ![] h (constant Cert.Pre_finite_inputs.S_ .f32 0x7F800000#32)) i = 1#1) :
    IsReal (x i) :=
  isReal_of_abs_lt (x i) e

/-- The whole-array test: a conjunction over all entries that came out true makes every entry real. -/
theorem realArr_of_all {s : Shape} (x : FVec Ideal s .f32) (h : Cert.Pre_finite_inputs.S_.BroadcastsInDim s ![])
    {axes : List (Fin s.rank)} (hr : s.ReducesTo axes Cert.Pre_finite_inputs.S_)
    (hu : 0 < Cert.Pre_finite_inputs.S_.numel) (init : IVec Cert.Pre_finite_inputs.S_ 1)
    (e : Host.reduce IntOp.andi
          (cmpf .olt (Host.absf x) (broadcastInDim s ![] h (constant Cert.Pre_finite_inputs.S_ .f32 0x7F800000#32)))
          init hr hu ix0 = 1#1) :
    ∀ i, IsReal (x i) := fun i =>
  isReal_of_test x h i (Host.reduce_andi_all _ init hr hu ix0 e i)

/-- Under the precondition the node table, the edge table and the three matrices have real entries. -/
theorem real_of_pre (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    RealArr (s := SN) (m ((c.tc : Thread Cert.KernelIdeal.nD Cert.KernelIdeal.τ).loc Cert.KernelIdeal.main_arg0))
    ∧ RealArr (s := SE) (m ((c.tc : Thread Cert.KernelIdeal.nD Cert.KernelIdeal.τ).loc Cert.KernelIdeal.main_arg2))
    ∧ RealArr (s := SW) (m ((c.tc : Thread Cert.KernelIdeal.nD Cert.KernelIdeal.τ).loc Cert.KernelIdeal.main_arg3))
    ∧ RealArr (s := SW) (m ((c.tc : Thread Cert.KernelIdeal.nD Cert.KernelIdeal.τ).loc Cert.KernelIdeal.main_arg4))
    ∧ RealArr (s := SW) (m ((c.tc : Thread Cert.KernelIdeal.nD Cert.KernelIdeal.τ).loc Cert.KernelIdeal.main_arg5)) := by
  have e := congrFun (hpre c) ix0
  dsimp only [Cert.Pre_finite_inputs.fn, Cert.Pre_finite_inputs.fn_part1] at e
  obtain ⟨e4, e5⟩ := IntOp.andi_eq_one.1 e
  obtain ⟨e3, e4⟩ := IntOp.andi_eq_one.1 e4
  obtain ⟨e2, e3⟩ := IntOp.andi_eq_one.1 e3
  obtain ⟨e0, e2⟩ := IntOp.andi_eq_one.1 e2
  exact ⟨realArr_of_all _ _ _ _ _ e0, realArr_of_all _ _ _ _ _ e2, realArr_of_all _ _ _ _ _ e3,
    realArr_of_all _ _ _ _ _ e4, realArr_of_all _ _ _ _ _ e5⟩

/-- The zero word denotes zero. -/
theorem zero_word : Ideal.ofBits .f32 0x00000000#32 = 0 := by simp [Ideal.ofBits, Ideal.ieee]

/-- The reference's per-node sums of the edge table are real numbers when the edge table's entries are. -/
theorem scatter_real (x1 : (⟨Cert.ReferenceIdeal.S2x1600000, .i32⟩ : BufTy).Contents (Elt Ideal)) (ew : SE.Idx → EReal)
    (hew : RealArr ew) :
    RealArr (s := SN) (Cert.ReferenceIdeal.Read.val_main_v23 (F := Ideal) x1 ew) := by
  intro i
  obtain ⟨s, q, rfl⟩ : ∃ s q, i = ix2 s q := ⟨i 0, i 1, eq_ix2 i⟩
  have h : Cert.ReferenceIdeal.Read.val_main_v23 (F := Ideal) x1 ew (ix2 s q) = _ :=
    Cert.LibRowScatter.scatterAdd_apply (n := 50000) (e := 1600000) (c := 32) (w := 32) (φ := .f32)
      Cert.ReferenceIdeal.Facts₀.scatter_S50000x32_S1600000x1_S1600000x32_1_0_0_1_wf
      (Cert.ReferenceIdeal.Read.val_main_v21 (F := Ideal)) (Cert.ReferenceIdeal.Read.val_main_v22 (F := Ideal) x1) ew s q
  rw [h]
  refine IsReal.add ?_ (IsReal.sum _ _ fun r _ => IsReal.ite (hew _) isReal_zero)
  rw [Cert.ReferenceIdeal.Read.val_main_v21_apply, Cert.ReferenceIdeal.Read.val_main_cst_apply]
  show IsReal (Ideal.ofBits .f32 0x00000000#32)
  rw [zero_word]
  exact isReal_zero

end Cert.EdgeFinite

end
-- ==== Proof.Bridge.lean ====
/-
  The kernel program and the reference compute the same index columns and the same per-source-node sums.

  Both programs take the two rows of the edge list, wrap a negative node number by +50000 and use the result as a
  column of row indices, and both scatter-add the edge weights into zeros at the unwrapped source column. The two
  programs print these computations operation for operation alike, so the terms are equal as they stand.
-/
import proofs.«172145_j1520418423078_2_alg».proof.Proof.KernelTerms
import proofs.«172145_j1520418423078_2_alg».proof.Proof.Gen.ReferenceIdeal.Read

noncomputable section

namespace Cert.EdgeBridge

open Idealize.ShloMosaic Cert.KernelIdeal.EdgeHost

/-- The wrapped source column is the reference's. -/
theorem src_eq (x1 : IVec Cert.KernelIdeal.S2x1600000 32) :
    wrapCol (srcVec x1) = Cert.ReferenceIdeal.Read.val_main_v9 (F := Ideal) x1 := rfl

/-- The wrapped destination column is the reference's. -/
theorem dst_eq (x1 : IVec Cert.KernelIdeal.S2x1600000 32) :
    wrapCol (dstVec x1) = Cert.ReferenceIdeal.Read.val_main_v16 (F := Ideal) x1 := rfl

/-- The per-source-node sums are the reference's. -/
theorem segSum_eq (x1 : IVec Cert.KernelIdeal.S2x1600000 32) (ew : FVec Ideal Cert.KernelIdeal.S1600000x32 .f32) :
    segSum x1 ew = Cert.ReferenceIdeal.Read.val_main_v23 (F := Ideal) x1 ew := rfl

end Cert.EdgeBridge

end
-- ==== Proof.KernelSpec.lean ====
/-
  The kernel program's result is the specification of its arguments.

  The result term (KernelRun) is the packed product re-laid edge by edge: entry (e, o) is the endpoint sum of the
  projected node table plus the edge's own projection Σ_k ew (e, k) · wi (k, o) (PackedSum), which is the node-first
  arrangement `kerOut` (EndpointSum). Under the precondition every float input is real, hence so are the per-source-node
  sums, and on real entries the node-first arrangement is the edge-first one, `refOut` (Algebra).
-/
import proofs.«172145_j1520418423078_2_alg».proof.Proof.KernelRun
import proofs.«172145_j1520418423078_2_alg».proof.Proof.PackedSum
import proofs.«172145_j1520418423078_2_alg».proof.Proof.EndpointSum
import proofs.«172145_j1520418423078_2_alg».proof.Proof.Algebra
import proofs.«172145_j1520418423078_2_alg».proof.Proof.Finite
import proofs.«172145_j1520418423078_2_alg».proof.Proof.Bridge

noncomputable section

open scoped BigOperators

namespace Cert.EdgeFinal

open Idealize.ShloMosaic Idealize.ShloMosaic.TcCoe Idealize.ShloMosaic.ValueIdx Idealize.SL.Sem
open Cert.KernelIdeal Cert.KernelIdeal.EdgeHost

/-- The layer's output as the specification's edge-first arrangement of the kernel program's argument arrays. -/
def spec (m : (ℓ : Loc nD τ sig) → Buf (Elt Ideal) ℓ) (c : Dev nD) : S1600000x32.Idx → EReal :=
  Cert.EdgeSpec.refOut (m ((c : Thread nD τ).loc main_arg0))
    (segSum (m ((c : Thread nD τ).loc main_arg1)) (m ((c : Thread nD τ).loc main_arg2)))
    (m ((c : Thread nD τ).loc main_arg2)) (m ((c : Thread nD τ).loc main_arg3))
    (m ((c : Thread nD τ).loc main_arg4)) (m ((c : Thread nD τ).loc main_arg5))
    (Cert.RowGather.rowAt (n := 50000) (by decide) (wrapCol (srcVec (m ((c : Thread nD τ).loc main_arg1)))))
    (Cert.RowGather.rowAt (n := 50000) (by decide) (wrapCol (dstVec (m ((c : Thread nD τ).loc main_arg1)))))

/-- Under the precondition the kernel program's result is the specification. -/
theorem result_spec (m : (ℓ : Loc nD τ sig) → Buf (Elt Ideal) ℓ)
    (hpre : Cert.Pre_KernelIdeal (hPre_finite_inputs := Cert.Pre_finite_inputs.Gen.facts) m) (c : Dev nD) :
    Cert.KernelIdeal.EdgeRun.result m c = spec m c := by
  obtain ⟨hx, hew, hwx, -, hwj⟩ := Cert.EdgeFinite.real_of_pre m hpre c
  have hS : Cert.EdgeSpec.RealArr (s := Cert.EdgeSpec.SN)
      (segSum (m ((c : Thread nD τ).loc main_arg1)) (m ((c : Thread nD τ).loc main_arg2))) :=
    Cert.EdgeFinite.scatter_real (m ((c : Thread nD τ).loc main_arg1)) (m ((c : Thread nD τ).loc main_arg2)) hew
  unfold spec
  rw [← Cert.EdgeSpec.kerOut_eq_refOut _ _ _ _ _ _ _ _ hx hS hwx hwj, ← Cert.KernelIdeal.EdgeOut.kerOut_form]
  funext j
  obtain ⟨e, o, rfl⟩ : ∃ (e : Fin 1600000) (o : Fin 32), j = ix2 e o := ⟨j 0, j 1, eq_ix2 j⟩
  exact Cert.KernelIdeal.EdgeOut.packed_apply _ _ _ e o

end Cert.EdgeFinal

end
-- ==== Proof.RefValue.lean ====
/-
  The reference arrangement of the layer, read entry by entry.

  The reference computes, for every edge `e` and column `o`, the three projections of the layer in order: the two
  endpoint rows of the node features `x` are taken (a gather of whole rows at the source column of the edge list and
  one at the destination column), added, and multiplied by `wx`; the edge weights are multiplied by `wi`; the two
  endpoint rows of the second node table `S` (the scatter-added edge weights) are taken by the same two gathers,
  added, and multiplied by `wj`; the three products are added, the first two first. Read at the index `(e, o)`,
  each product is a sum over the 32 contraction positions and each gathered row is the table's row at the clamped
  start index, so the result is `refOut` of the arguments, with the row maps `rs`, `rd` the clamped source and
  destination start indices. No entry needs to be finite: the reference is read exactly as it is written.
-/
import proofs.«172145_j1520418423078_2_alg».proof.Proof.Spec
import proofs.«172145_j1520418423078_2_alg».proof.Proof.LibRowGather
import proofs.«172145_j1520418423078_2_alg».proof.Proof.LibPlainDot
import proofs.«172145_j1520418423078_2_alg».proof.Proof.Gen.ReferenceIdeal.Read

noncomputable section

open scoped BigOperators

namespace Cert.RefValue

open Cert.ReferenceIdeal Cert.ReferenceIdeal.Gen Cert.ReferenceIdeal.Read
open Idealize.ShloMosaic Idealize.ShloMosaic.ValueIdx

/-- The program's gather record is the gather of whole rows of a 50000 × 32 table at 1600000 start indices. -/
theorem gatherDims_eq :
    gather_S50000x32_S1600000x1_S1600000x32_1_0_n_n_0_1_132
      = Cert.RowGather.rowDims 50000 1600000 32
          Facts₀.gather_S50000x32_S1600000x1_S1600000x32_1_0_n_n_0_1_132_wf := rfl

/-- The program's gather at `(e, k)`: column `k` of the row that start index `e` names. -/
theorem gather_at (x : (⟨S50000x32, .f32⟩ : BufTy).Contents (Elt Ideal))
    (idx : (⟨S1600000x1, .i32⟩ : BufTy).Contents (Elt Ideal)) (e : Fin 1600000) (k : Fin 32) :
    Host.gather gather_S50000x32_S1600000x1_S1600000x32_1_0_n_n_0_1_132 x idx (ix2 e k)
      = x (ix2 (Cert.RowGather.rowAt (n := 50000) (by decide) idx e) k) := by
  rw [gatherDims_eq]
  exact Cert.RowGather.gather_row_apply (by decide) _ x idx e k

/-- The source column of the edge list is computed twice by the same term, -/
theorem v29_eq (x1 : (⟨S2x1600000, .i32⟩ : BufTy).Contents (Elt Ideal)) :
    val_main_v29 (F := Ideal) x1 = val_main_v9 (F := Ideal) x1 := rfl

/-- and so is the destination column. -/
theorem v36_eq (x1 : (⟨S2x1600000, .i32⟩ : BufTy).Contents (Elt Ideal)) :
    val_main_v36 (F := Ideal) x1 = val_main_v16 (F := Ideal) x1 := rfl

/-- A product at `(e, o)` reads its left operand at `(e, k)` and its right operand at `(k, o)`, position by position. -/
theorem lidx19 (e : Fin 1600000) (o k : Fin 32) : lidx_main_v19 (ix2 e o) k = ix2 e k :=
  funext fun a => Fin.ext (by match a with | ⟨0, _⟩ => rfl | ⟨1, _⟩ => rfl)
theorem ridx19 (e : Fin 1600000) (o k : Fin 32) : ridx_main_v19 (ix2 e o) k = ix2 k o :=
  funext fun a => Fin.ext (by match a with | ⟨0, _⟩ => rfl | ⟨1, _⟩ => rfl)
theorem lidx20 (e : Fin 1600000) (o k : Fin 32) : lidx_main_v20 (ix2 e o) k = ix2 e k :=
  funext fun a => Fin.ext (by match a with | ⟨0, _⟩ => rfl | ⟨1, _⟩ => rfl)
theorem ridx20 (e : Fin 1600000) (o k : Fin 32) : ridx_main_v20 (ix2 e o) k = ix2 k o :=
  funext fun a => Fin.ext (by match a with | ⟨0, _⟩ => rfl | ⟨1, _⟩ => rfl)
theorem lidx39 (e : Fin 1600000) (o k : Fin 32) : lidx_main_v39 (ix2 e o) k = ix2 e k :=
  funext fun a => Fin.ext (by match a with | ⟨0, _⟩ => rfl | ⟨1, _⟩ => rfl)
theorem ridx39 (e : Fin 1600000) (o k : Fin 32) : ridx_main_v39 (ix2 e o) k = ix2 k o :=
  funext fun a => Fin.ext (by match a with | ⟨0, _⟩ => rfl | ⟨1, _⟩ => rfl)

/-- The summed endpoint rows of the node features at `(e, k)`. -/
theorem v18_at (x0 : (⟨S50000x32, .f32⟩ : BufTy).Contents (Elt Ideal))
    (x1 : (⟨S2x1600000, .i32⟩ : BufTy).Contents (Elt Ideal)) (e : Fin 1600000) (k : Fin 32) :
    val_main_v18 (F := Ideal) x0 x1 (ix2 e k)
      = x0 (ix2 (Cert.RowGather.rowAt (n := 50000) (by decide) (val_main_v9 (F := Ideal) x1) e) k)
        + x0 (ix2 (Cert.RowGather.rowAt (n := 50000) (by decide) (val_main_v16 (F := Ideal) x1) e) k) := by
  rw [val_main_v18_apply, Ideal.addf_def]
  unfold val_main_v10 val_main_v17
  rw [gather_at, gather_at]

/-- The summed endpoint rows of the second node table at `(e, k)`. -/
theorem v38_at (x1 : (⟨S2x1600000, .i32⟩ : BufTy).Contents (Elt Ideal))
    (x2 : (⟨S1600000x32, .f32⟩ : BufTy).Contents (Elt Ideal)) (e : Fin 1600000) (k : Fin 32) :
    val_main_v38 (F := Ideal) x1 x2 (ix2 e k)
      = val_main_v23 (F := Ideal) x1 x2
          (ix2 (Cert.RowGather.rowAt (n := 50000) (by decide) (val_main_v9 (F := Ideal) x1) e) k)
        + val_main_v23 (F := Ideal) x1 x2
          (ix2 (Cert.RowGather.rowAt (n := 50000) (by decide) (val_main_v16 (F := Ideal) x1) e) k) := by
  rw [val_main_v38_apply, Ideal.addf_def]
  unfold val_main_v30 val_main_v37
  rw [gather_at, gather_at, v29_eq, v36_eq]

/-- THE REFERENCE IS THE SPECIFICATION: its result is `refOut` of its arguments, the second node table being the
    scatter-added edge weights and the row maps the clamped source and destination start indices. -/
theorem ref_eq (x0 : (⟨S50000x32, .f32⟩ : BufTy).Contents (Elt Ideal))
    (x1 : (⟨S2x1600000, .i32⟩ : BufTy).Contents (Elt Ideal))
    (x2 : (⟨S1600000x32, .f32⟩ : BufTy).Contents (Elt Ideal))
    (x3 x4 x5 : (⟨S32x32, .f32⟩ : BufTy).Contents (Elt Ideal)) :
    Read.val_main_v41 (F := Ideal) x0 x1 x2 x3 x4 x5
      = Cert.EdgeSpec.refOut x0 (Read.val_main_v23 (F := Ideal) x1 x2) x2 x3 x4 x5
          (Cert.RowGather.rowAt (n := 50000) (by decide) (Read.val_main_v9 (F := Ideal) x1))
          (Cert.RowGather.rowAt (n := 50000) (by decide) (Read.val_main_v16 (F := Ideal) x1)) := by
  funext j
  obtain ⟨e, o, rfl⟩ : ∃ (e : Fin 1600000) (o : Fin 32), j = ix2 e o := ⟨j 0, j 1, ValueIdx.eq_ix2 j⟩
  rw [val_main_v41_apply, val_main_v40_apply, Ideal.addf_def, Ideal.addf_def,
    val_main_v19_apply, val_main_v20_apply, val_main_v39_apply]
  simp only [lidx19, ridx19, lidx20, ridx20, lidx39, ridx39, v18_at, v38_at]
  rfl

end Cert.RefValue

end
-- ==== Proof.lean ====
/-
  A message-passing layer over 50000 nodes and 1600000 edges: the kernel program against its reference.

  For an edge e with source row s and destination row d, and the per-source-node sums S of the edge weights, the
  reference computes

    out[e] = (x[s] + x[d]) · wx + ew[e] · wi + (S[s] + S[d]) · wj.

  The kernel program first projects every node, T = x · wx + S · wj, gathers T[s] + T[d] per edge, packs four edges per
  128-wide row, and in its region adds the packed edge weights times the 128×128 block-diagonal matrix of four copies
  of wi. On the extended reals the two agree once the float inputs are real numbers: the step from (a + b) · w to
  a · w + b · w is distributivity, which the infinities break, so the precondition (every float input finite) is used;
  the block-diagonal product needs only 0 · y = 0 and 1 · y = y. Both programs wrap and clamp the edge list's node
  numbers, and drop out-of-range scatter targets, by the same operations, so the row maps and S are common terms.

  The three frames: the two kernel programs' by their generated frame certificates, the reference's by its generated
  run with the result dropped. The idealization rewrote no operation, so its claim is trivial. The value claim sets the
  kernel program's run (its result read off the frame run block by block, then through the host's re-laying) beside
  the reference's run (read operation by operation), both at the one specification of the kernel program's arguments.
-/
import proofs.«172145_j1520418423078_2_alg».proof.Defs
import proofs.«172145_j1520418423078_2_alg».proof.Proof.Gen.Kernel
import proofs.«172145_j1520418423078_2_alg».proof.Proof.Gen.Kernel.Skeleton
import proofs.«172145_j1520418423078_2_alg».proof.Proof.Gen.Kernel.Launch
import proofs.«172145_j1520418423078_2_alg».proof.Proof.Gen.Kernel.Points
import proofs.«172145_j1520418423078_2_alg».proof.Proof.Gen.Kernel.Frame
import proofs.«172145_j1520418423078_2_alg».proof.Proof.Gen.KernelIdeal
import proofs.«172145_j1520418423078_2_alg».proof.Proof.Gen.KernelIdeal.Skeleton
import proofs.«172145_j1520418423078_2_alg».proof.Proof.Gen.KernelIdeal.Launch
import proofs.«172145_j1520418423078_2_alg».proof.Proof.Gen.KernelIdeal.Points
import proofs.«172145_j1520418423078_2_alg».proof.Proof.Gen.KernelIdeal.Frame
import proofs.«172145_j1520418423078_2_alg».proof.Proof.Gen.ReferenceIdeal
import proofs.«172145_j1520418423078_2_alg».proof.Proof.Gen.Pre_finite_inputs
import proofs.«172145_j1520418423078_2_alg».proof.Proof.Gen.ReferenceIdeal.Run
import proofs.«172145_j1520418423078_2_alg».proof.Proof.Gen.ReferenceIdeal.Read
import proofs.«172145_j1520418423078_2_alg».proof.Proof.KernelSpec
import proofs.«172145_j1520418423078_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and keeps its arguments: its generated frame certificate. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its arguments: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments, of which the kernel's are finite, both programs end with the result at the
    specification of the kernel program's arguments. -/
theorem algebraic : Cert.algebraic_KernelIdeal_ReferenceIdeal := by
  intro m ρ m' ρ' hpre hagree
  refine ⟨fun c => Cert.EdgeFinal.spec m c, ?_, ?_⟩
  · exact (θ_run Cert.KernelIdeal.defs _ _).mono
      (fun _ h c => ⟨(h c).1.trans (Cert.EdgeFinal.result_spec m hpre c), (h c).2⟩)
      (Cert.KernelIdeal.EdgeRun.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v41_eq, Cert.RefValue.ref_eq]
    obtain ⟨a0, a1, a2, a3, a4, a5⟩ := hagree c
    rw [a0, a1, a2, a3, a4, a5]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
